-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S512x512 : Shape := ⟨2, ![512, 512]⟩
abbrev S131328 : Shape := ⟨1, ![131328]⟩
abbrev S512 : Shape := ⟨1, ![512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S131328 : S_.BroadcastsInDim S131328 (![] : Fin 0 → Fin S131328.rank)
  reducesTo_S131328_S_d0 : S131328.ReducesTo [0] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S64x512x512 .f32) (main_arg1 : FVec F S512x512 .f32) (main_arg2 : FVec F S131328 .f32) (main_arg3 : FVec F S512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S131328 .f32 := Host.absf main_arg2
  let main_cst_2 : FVec F S_ .f32 := constant S_ .f32 0x7F800000#32
  let main_v10 : FVec F S131328 .f32 := broadcastInDim S131328 ![] bcast_S_S131328 main_cst_2
  let main_v11 : IVec S131328 1 := cmpf .olt main_v9 main_v10
  let main_c_3 : IVec S_ 1 := constantI S_ 1 1#1
  let main_v12 : IVec S_ 1 := (fun x v => Host.reduce IntOp.andi x v reducesTo_S131328_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S64x512x512 : Shape := ⟨3, ![64, 512, 512]⟩
abbrev S512x512 : Shape := ⟨2, ![512, 512]⟩
abbrev S131328 : Shape := ⟨1, ![131328]⟩
abbrev S512 : Shape := ⟨1, ![512]⟩
abbrev S_ : Shape := ⟨0, ![]⟩
abbrev S512x512x1 : Shape := ⟨3, ![512, 512, 1]⟩
abbrev S1 : Shape := ⟨1, ![1]⟩
abbrev S1x1x1 : Shape := ⟨3, ![1, 1, 1]⟩
abbrev S1x512 : Shape := ⟨2, ![1, 512]⟩
abbrev S512x256 : Shape := ⟨2, ![512, 256]⟩
abbrev S32768x512 : Shape := ⟨2, ![32768, 512]⟩
abbrev S2048x512 : Shape := ⟨2, ![2048, 512]⟩

abbrev nBuf : Space → Nat
  | .hbm => 80
  | .vmem => 11
  | .smem => 0
  | _ => 0

abbrev bufTy : (tb : Table) → Fin (tcTables nBuf tb) → BufTy
  | .hbm, ⟨0, _⟩ => ⟨S64x512x512, .f32⟩
  | .hbm, ⟨1, _⟩ => ⟨S512x512, .f32⟩
  | .hbm, ⟨2, _⟩ => ⟨S131328, .f32⟩
  | .hbm, ⟨3, _⟩ => ⟨S512, .f32⟩
  | .hbm, ⟨4, _⟩ => ⟨S512x512, .i32⟩
  | .hbm, ⟨5, _⟩ => ⟨S512x512, .i32⟩
  | .hbm, ⟨6, _⟩ => ⟨S512x512, .i1⟩
  | .hbm, ⟨7, _⟩ => ⟨S_, .i32⟩
  | .hbm, ⟨8, _⟩ => ⟨S512x512, .i32⟩
  | .hbm, ⟨9, _⟩ => ⟨S512x512, .i32⟩
  | .hbm, ⟨10, _⟩ => ⟨S_, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S_, .i32⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i1⟩
  | .hbm, ⟨22, _⟩ => ⟨S512x512, .i32⟩
  | .hbm, ⟨23, _⟩ => ⟨S512x512, .i32⟩
  | .hbm, ⟨24, _⟩ => ⟨S_, .i32⟩
  | .hbm, ⟨25, _⟩ => ⟨S512x512, .i32⟩
  | .hbm, ⟨26, _⟩ => ⟨S512x512, .i1⟩
  | .hbm, ⟨27, _⟩ => ⟨S512x512, .i1⟩
  | .hbm, ⟨28, _⟩ => ⟨S_, .i32⟩
  | .hbm, ⟨29, _⟩ => ⟨S512x512, .i32⟩
  | .hbm, ⟨30, _⟩ => ⟨S512x512, .i32⟩
  | .hbm, ⟨31, _⟩ => ⟨S512x512, .i32⟩
  | .hbm, ⟨32, _⟩ => ⟨S512x512, .i32⟩
  | .hbm, ⟨33, _⟩ => ⟨S512x512, .i32⟩
  | .hbm, ⟨34, _⟩ => ⟨S512x512, .i32⟩
  | .hbm, ⟨35, _⟩ => ⟨S_, .i32⟩
  | .hbm, ⟨36, _⟩ => ⟨S_, .i32⟩
  | .hbm, ⟨37, _⟩ => ⟨S512x512, .i32⟩
  | .hbm, ⟨38, _⟩ => ⟨S512x512, .i32⟩
  | .hbm, ⟨39, _⟩ => ⟨S_, .i32⟩
  | .hbm, ⟨40, _⟩ => ⟨S512x512, .i32⟩
  | .hbm, ⟨41, _⟩ => ⟨S512x512, .i1⟩
  | .hbm, ⟨42, _⟩ => ⟨S_, .i32⟩
  | .hbm, ⟨43, _⟩ => ⟨S512x512, .i32⟩
  | .hbm, ⟨44, _⟩ => ⟨S512x512, .i32⟩
  | .hbm, ⟨45, _⟩ => ⟨S512x512, .i32⟩
  | .hbm, ⟨46, _⟩ => ⟨S512x512x1, .i32⟩
  | .hbm, ⟨47, _⟩ => ⟨S1, .i32⟩
  | .hbm, ⟨48, _⟩ => ⟨S_, .i32⟩
  | .hbm, ⟨49, _⟩ => ⟨S512x512x1, .i32⟩
  | .hbm, ⟨50, _⟩ => ⟨S512x512x1, .i1⟩
  | .hbm, ⟨51, _⟩ => ⟨S1x1x1, .i32⟩
  | .hbm, ⟨52, _⟩ => ⟨S512x512x1, .i32⟩
  | .hbm, ⟨53, _⟩ => ⟨S512x512x1, .i1⟩
  | .hbm, ⟨54, _⟩ => ⟨S512x512x1, .i1⟩
  | .hbm, ⟨55, _⟩ => ⟨S_, .i1⟩
  | .hbm, ⟨56, _⟩ => ⟨S512x512, .i1⟩
  | .hbm, ⟨57, _⟩ => ⟨S512x512, .f32⟩
  | .hbm, ⟨58, _⟩ => ⟨S_, .f32⟩
  | .hbm, ⟨59, _⟩ => ⟨S512x512, .f32⟩
  | .hbm, ⟨60, _⟩ => ⟨S512x512, .f32⟩
  | .hbm, ⟨61, _⟩ => ⟨S_, .f32⟩
  | .hbm, ⟨62, _⟩ => ⟨S_, .f32⟩
  | .hbm, ⟨63, _⟩ => ⟨S512x512, .f32⟩
  | .hbm, ⟨64, _⟩ => ⟨S512x512, .f32⟩
  | .hbm, ⟨65, _⟩ => ⟨S512x512, .i1⟩
  | .hbm, ⟨66, _⟩ => ⟨S512x512, .f32⟩
  | .hbm, ⟨67, _⟩ => ⟨S512x512, .f32⟩
  | .hbm, ⟨68, _⟩ => ⟨S512x512, .bf16⟩
  | .hbm, ⟨69, _⟩ => ⟨S512x512, .bf16⟩
  | .hbm, ⟨70, _⟩ => ⟨S512x512, .bf16⟩
  | .hbm, ⟨71, _⟩ => ⟨S_, .f32⟩
  | .hbm, ⟨72, _⟩ => ⟨S1x512, .f32⟩
  | .hbm, ⟨73, _⟩ => ⟨S_, .i32⟩
  | .hbm, ⟨74, _⟩ => ⟨S1, .i32⟩
  | .hbm, ⟨75, _⟩ => ⟨S1x512, .f32⟩
  | .hbm, ⟨76, _⟩ => ⟨S512x512, .bf16⟩
  | .hbm, ⟨77, _⟩ => ⟨S32768x512, .f32⟩
  | .hbm, ⟨78, _⟩ => ⟨S32768x512, .f32⟩
  | .hbm, ⟨79, _⟩ => ⟨S64x512x512, .f32⟩
  | .local _ .vmem, ⟨0, _⟩ => ⟨S512x512, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S2048x512, .f32⟩
  | .local _ .vmem, ⟨6, _⟩ => ⟨S2048x512, .f32⟩
  | .local _ .vmem, ⟨7, _⟩ => ⟨S512x512, .bf16⟩
  | .local _ .vmem, ⟨8, _⟩ => ⟨S1x512, .f32⟩
  | .local _ .vmem, ⟨9, _⟩ => ⟨S2048x512, .f32⟩
  | .local _ .vmem, ⟨10, _⟩ => ⟨S2048x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_2 : Ref sig .tc := ⟨.hbm, 35, rfl⟩
abbrev main_call1_v0 : Ref sig .tc := ⟨.hbm, 36, rfl⟩
abbrev main_call1_v1 : Ref sig .tc := ⟨.hbm, 37, rfl⟩
abbrev main_v12 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c_1 : Ref sig .tc := ⟨.hbm, 47, rfl⟩
abbrev main_call2_c_2 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_3 : Ref sig .tc := ⟨.hbm, 55, rfl⟩
abbrev main_call2_v12 : Ref sig .tc := ⟨.hbm, 56, rfl⟩
abbrev main_call2_v13 : Ref sig .tc := ⟨.hbm, 57, rfl⟩
abbrev main_call2_cst : Ref sig .tc := ⟨.hbm, 58, rfl⟩
abbrev main_call2_v14 : Ref sig .tc := ⟨.hbm, 59, rfl⟩
abbrev main_v13 : Ref sig .tc := ⟨.hbm, 60, rfl⟩
abbrev main_cst : Ref sig .tc := ⟨.hbm, 61, rfl⟩
abbrev main_call3_v0 : Ref sig .tc := ⟨.hbm, 62, rfl⟩
abbrev main_call3_v1 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_cst_3 : Ref sig .tc := ⟨.hbm, 71, rfl⟩
abbrev main_v21 : Ref sig .tc := ⟨.hbm, 72, rfl⟩
abbrev main_c_4 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S_S512x512x1 : S_.BroadcastsInDim S512x512x1 (![] : Fin 0 → Fin S512x512x1.rank)
  bcast_S1_S1x1x1_2 : S1.BroadcastsInDim S1x1x1 (![2] : Fin 1 → Fin S1x1x1.rank)
  bcast_S1x1x1_S512x512x1_0_1_2 : S1x1x1.BroadcastsInDim S512x512x1 (![0, 1, 2] : Fin 3 → Fin S512x512x1.rank)
  reducesTo_S512x512x1_S512x512_d2 : S512x512x1.ReducesTo [2] S512x512
  h_S_ : 0 < S_.numel
  bitsLt_bf16_f32 : FTy.bits .bf16 < FTy.bits .f32
  transposes_S512x512_S512x512_1_0 : S512x512.Transposes [1, 0] S512x512
  bcast_S_S1x512 : S_.BroadcastsInDim S1x512 (![] : Fin 0 → Fin S1x512.rank)
  bcast_S_S1 : S_.BroadcastsInDim S1 (![] : Fin 0 → Fin S1.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  packedbf16_S512x256_S512x256_0_0 : (Rect.unit (s := S512x256) ![0, 0] S512x256.size inb_S512x256_S512x256_0_0).PackedRows (EltTy.packing .bf16)
  shapeCasts_S64x512x512_S32768x512 : S64x512x512.ShapeCasts S32768x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S32768x512_S64x512x512 : S32768x512.ShapeCasts S64x512x512
  gather_S131328_S512x512x1_S512x512_n_0_n_n_0_2_1_wf : GatherDims.WF S131328 S512x512x1 S512x512 [] [0] [] [0] [] 2 ![1]
  scatter_S1x512_S1_S512_0_0_0_0_wf : ScatterDims.WF S1x512 S1 S512 [0] [0] [0] 0
  dot_S512x512_S512x256_S512x256_1_0_0_1_n_n_wf : DotDims.WF S512x512 S512x256 S512x256 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x512.size a
  hwx0_1 : ∀ i : grid0.Coords, EltTy.bits .bf16 = 32 ∨ (Rect.block (s := S512x512) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x512.size a
  hwx0_2 : ∀ i : grid0.Coords, EltTy.bits .bf16 = 32 ∨ (Rect.block (s := S512x512) S512x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S32768x512.size a
  hwx1_0 : ∀ i : grid1.Coords, EltTy.bits .f32 = 32 ∨ (Rect.block (s := S32768x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S32768x512.size a
  hwx1_3 : ∀ i : grid1.Coords, EltTy.bits .f32 = 32 ∨ (Rect.block (s := S32768x512) S2048x512.size (cc1_transform_3 i) (hinb1_3 i)).WholeWords (EltTy.packing .f32)

variable [Facts₀]

def gather_S131328_S512x512x1_S512x512_n_0_n_n_0_2_1 : GatherDims S131328 S512x512x1 S512x512 where
  offsetDims := []
  collapsedSliceDims := [0]
  operandBatchingDims := []
  startIndicesBatchingDims := []
  startIndexMap := [0]
  indexVectorDim := 2
  sliceSizes := ![1]
  wf := gather_S131328_S512x512x1_S512x512_n_0_n_n_0_2_1_wf
def scatter_S1x512_S1_S512_0_0_0_0 : ScatterDims S1x512 S1 S512 where
  updateWindowDims := [0]
  insertedWindowDims := [0]
  scatterDimsToOperandDims := [0]
  indexVectorDim := 0
  wf := scatter_S1x512_S1_S512_0_0_0_0_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v18) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v20) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x512x512 : Shape := ⟨3, ![64, 512, 512]⟩
abbrev S512x512 : Shape := ⟨2, ![512, 512]⟩
abbrev S131328 : Shape := ⟨1, ![131328]⟩
abbrev S512 : Shape := ⟨1, ![512]⟩
abbrev S_ : Shape := ⟨0, ![]⟩
abbrev S512x512x1 : Shape := ⟨3, ![512, 512, 1]⟩
abbrev S1 : Shape := ⟨1, ![1]⟩
abbrev S1x1x1 : Shape := ⟨3, ![1, 1, 1]⟩
abbrev S1x512 : Shape := ⟨2, ![1, 512]⟩
abbrev S32768x512 : Shape := ⟨2, ![32768, 512]⟩
abbrev S1024x512 : Shape := ⟨2, ![1024, 512]⟩

abbrev nBuf : Space → Nat
  | .hbm => 79
  | .vmem => 9
  | .smem => 0
  | _ => 0

abbrev bufTy : (tb : Table) → Fin (tcTables nBuf tb) → BufTy
  | .hbm, ⟨0, _⟩ => ⟨S64x512x512, .f32⟩
  | .hbm, ⟨1, _⟩ => ⟨S512x512, .f32⟩
  | .hbm, ⟨2, _⟩ => ⟨S131328, .f32⟩
  | .hbm, ⟨3, _⟩ => ⟨S512, .f32⟩
  | .hbm, ⟨4, _⟩ => ⟨S512x512, .i32⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i32⟩
  | .hbm, ⟨12, _⟩ => ⟨S512x512, .i32⟩
  | .hbm, ⟨13, _⟩ => ⟨S_, .i32⟩
  | .hbm, ⟨14, _⟩ => ⟨S_, .i32⟩
  | .hbm, ⟨15, _⟩ => ⟨S512x512, .i32⟩
  | .hbm, ⟨16, _⟩ => ⟨S512x512, .i32⟩
  | .hbm, ⟨17, _⟩ => ⟨S512x512, .i32⟩
  | .hbm, ⟨18, _⟩ => ⟨S_, .i32⟩
  | .hbm, ⟨19, _⟩ => ⟨S512x512, .i32⟩
  | .hbm, ⟨20, _⟩ => ⟨S512x512, .i1⟩
  | .hbm, ⟨21, _⟩ => ⟨S512x512, .i32⟩
  | .hbm, ⟨22, _⟩ => ⟨S512x512, .i32⟩
  | .hbm, ⟨23, _⟩ => ⟨S_, .i32⟩
  | .hbm, ⟨24, _⟩ => ⟨S512x512, .i32⟩
  | .hbm, ⟨25, _⟩ => ⟨S512x512, .i1⟩
  | .hbm, ⟨26, _⟩ => ⟨S512x512, .i1⟩
  | .hbm, ⟨27, _⟩ => ⟨S_, .i32⟩
  | .hbm, ⟨28, _⟩ => ⟨S512x512, .i32⟩
  | .hbm, ⟨29, _⟩ => ⟨S512x512, .i32⟩
  | .hbm, ⟨30, _⟩ => ⟨S512x512, .i32⟩
  | .hbm, ⟨31, _⟩ => ⟨S512x512, .i32⟩
  | .hbm, ⟨32, _⟩ => ⟨S512x512, .i32⟩
  | .hbm, ⟨33, _⟩ => ⟨S512x512, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S512x512, .i32⟩
  | .hbm, ⟨38, _⟩ => ⟨S512x512, .i32⟩
  | .hbm, ⟨39, _⟩ => ⟨S_, .i32⟩
  | .hbm, ⟨40, _⟩ => ⟨S512x512, .i32⟩
  | .hbm, ⟨41, _⟩ => ⟨S512x512, .i32⟩
  | .hbm, ⟨42, _⟩ => ⟨S_, .i32⟩
  | .hbm, ⟨43, _⟩ => ⟨S512x512, .i32⟩
  | .hbm, ⟨44, _⟩ => ⟨S512x512, .i1⟩
  | .hbm, ⟨45, _⟩ => ⟨S_, .i32⟩
  | .hbm, ⟨46, _⟩ => ⟨S512x512, .i32⟩
  | .hbm, ⟨47, _⟩ => ⟨S512x512, .i32⟩
  | .hbm, ⟨48, _⟩ => ⟨S512x512, .i32⟩
  | .hbm, ⟨49, _⟩ => ⟨S512x512x1, .i32⟩
  | .hbm, ⟨50, _⟩ => ⟨S1, .i32⟩
  | .hbm, ⟨51, _⟩ => ⟨S_, .i32⟩
  | .hbm, ⟨52, _⟩ => ⟨S512x512x1, .i32⟩
  | .hbm, ⟨53, _⟩ => ⟨S512x512x1, .i1⟩
  | .hbm, ⟨54, _⟩ => ⟨S1x1x1, .i32⟩
  | .hbm, ⟨55, _⟩ => ⟨S512x512x1, .i32⟩
  | .hbm, ⟨56, _⟩ => ⟨S512x512x1, .i1⟩
  | .hbm, ⟨57, _⟩ => ⟨S512x512x1, .i1⟩
  | .hbm, ⟨58, _⟩ => ⟨S_, .i1⟩
  | .hbm, ⟨59, _⟩ => ⟨S512x512, .i1⟩
  | .hbm, ⟨60, _⟩ => ⟨S512x512, .f32⟩
  | .hbm, ⟨61, _⟩ => ⟨S_, .f32⟩
  | .hbm, ⟨62, _⟩ => ⟨S512x512, .f32⟩
  | .hbm, ⟨63, _⟩ => ⟨S512x512, .f32⟩
  | .hbm, ⟨64, _⟩ => ⟨S512x512, .i1⟩
  | .hbm, ⟨65, _⟩ => ⟨S_, .f32⟩
  | .hbm, ⟨66, _⟩ => ⟨S_, .f32⟩
  | .hbm, ⟨67, _⟩ => ⟨S512x512, .f32⟩
  | .hbm, ⟨68, _⟩ => ⟨S512x512, .f32⟩
  | .hbm, ⟨69, _⟩ => ⟨S512x512, .i1⟩
  | .hbm, ⟨70, _⟩ => ⟨S512x512, .f32⟩
  | .hbm, ⟨71, _⟩ => ⟨S512x512, .f32⟩
  | .hbm, ⟨72, _⟩ => ⟨S512x512, .f32⟩
  | .hbm, ⟨73, _⟩ => ⟨S512x512, .f32⟩
  | .hbm, ⟨74, _⟩ => ⟨S1x512, .f32⟩
  | .hbm, ⟨75, _⟩ => ⟨S512x512, .f32⟩
  | .hbm, ⟨76, _⟩ => ⟨S32768x512, .f32⟩
  | .hbm, ⟨77, _⟩ => ⟨S32768x512, .f32⟩
  | .hbm, ⟨78, _⟩ => ⟨S64x512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S1024x512, .f32⟩
  | .local _ .vmem, ⟨4, _⟩ => ⟨S1024x512, .f32⟩
  | .local _ .vmem, ⟨5, _⟩ => ⟨S512x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_2 : Ref sig .tc := ⟨.hbm, 34, rfl⟩
abbrev main_c_3 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v11 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v12 : Ref sig .tc := ⟨.hbm, 63, rfl⟩
abbrev main_v13 : Ref sig .tc := ⟨.hbm, 64, rfl⟩
abbrev main_cst : Ref sig .tc := ⟨.hbm, 65, rfl⟩
abbrev main_call3_v0 : Ref sig .tc := ⟨.hbm, 66, rfl⟩
abbrev main_call3_v1 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S_S512x512x1 : S_.BroadcastsInDim S512x512x1 (![] : Fin 0 → Fin S512x512x1.rank)
  bcast_S1_S1x1x1_2 : S1.BroadcastsInDim S1x1x1 (![2] : Fin 1 → Fin S1x1x1.rank)
  bcast_S1x1x1_S512x512x1_0_1_2 : S1x1x1.BroadcastsInDim S512x512x1 (![0, 1, 2] : Fin 3 → Fin S512x512x1.rank)
  reducesTo_S512x512x1_S512x512_d2 : S512x512x1.ReducesTo [2] S512x512
  h_S_ : 0 < S_.numel
  transposes_S512x512_S512x512_1_0 : S512x512.Transposes [1, 0] S512x512
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S64x512x512_S32768x512 : S64x512x512.ShapeCasts S32768x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S32768x512_S64x512x512 : S32768x512.ShapeCasts S64x512x512
  gather_S131328_S512x512x1_S512x512_n_0_n_n_0_2_1_wf : GatherDims.WF S131328 S512x512x1 S512x512 [] [0] [] [0] [] 2 ![1]
  dot_S512x512_S512x512_S512x512_1_0_0_1_n_n_wf : DotDims.WF S512x512 S512x512 S512x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S32768x512.size a
  hwx1_0 : ∀ i : grid1.Coords, EltTy.bits .f32 = 32 ∨ (Rect.block (s := S32768x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S32768x512.size a
  hwx1_3 : ∀ i : grid1.Coords, EltTy.bits .f32 = 32 ∨ (Rect.block (s := S32768x512) S1024x512.size (cc1_transform_3 i) (hinb1_3 i)).WholeWords (EltTy.packing .f32)

variable [Facts₀]

def gather_S131328_S512x512x1_S512x512_n_0_n_n_0_2_1 : GatherDims S131328 S512x512x1 S512x512 where
  offsetDims := []
  collapsedSliceDims := [0]
  operandBatchingDims := []
  startIndicesBatchingDims := []
  startIndexMap := [0]
  indexVectorDim := 2
  sliceSizes := ![1]
  wf := gather_S131328_S512x512x1_S512x512_n_0_n_n_0_2_1_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v18) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512x512.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S512x512.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KRun.lean ====
/-
  The run of the whole program with its RESULT named: every weakly fair execution terminates, nothing faulting, and
  the result array ends at the last boundary's contents (the fold of the host operations and of the two regions'
  write-backs over the launch memory), the argument arrays as launched.
-/
import proofs.«149885_g2000505278659894_pallasbulk_154_2_alg».proof.Proof.Gen.KernelIdeal.Frame

set_option maxRecDepth 16384

noncomputable section

namespace Cert.KernelIdeal.RunVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's segments run from the launch memory to the last boundary; the final state is read against the last
    thread state at the result's buffer and at each argument's. -/
theorem run_value : θ_run defs (onTc (τ := τ) (main (F := F))) ⟨m, fun _ => 0, ρ⟩ (fun r => ∀ c : Dev nD,
      r.2.mem ((c.tc : Thread nD τ).loc main_v27) = W14 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v27 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c)⟩)

end Cert.KernelIdeal.RunVal

end
-- ==== Proof.RRun.lean ====
/-
  The run of the whole program with its RESULT named: every weakly fair execution terminates, nothing faulting, and
  the result array ends at the last boundary's contents (the fold of the host operations and of the two regions'
  write-backs over the launch memory), the argument arrays as launched.
-/
import proofs.«149885_g2000505278659894_pallasbulk_154_2_alg».proof.Proof.Gen.ReferenceIdeal.Frame

set_option maxRecDepth 16384

noncomputable section

namespace Cert.ReferenceIdeal.RunVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's segments run from the launch memory to the last boundary; the final state is read against the last
    thread state at the result's buffer and at each argument's. -/
theorem run_value : θ_run defs (onTc (τ := τ) (main (F := F))) ⟨m, fun _ => 0, ρ⟩ (fun r => ∀ c : Dev nD,
      r.2.mem ((c.tc : Thread nD τ).loc main_v24) = W14 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v24 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c)⟩)

end Cert.ReferenceIdeal.RunVal

end
-- ==== Proof.HostSpec.lean ====
/-
  The three operand arrays both programs feed their two matrix products, each as ONE function of an argument array,
  index by index, over literal shapes.

  * `utArr tri` is the transposed triangular factor Uᵀ: entry (a, b) is 0 above the diagonal (a < b); on and below
    it, it is the packed vector's element at the row-major position of (b, a) in the upper triangle,
    p(b, a) = 512·b − ⌊b(b−1)/2⌋ + (a − b), read as `jnp.take` reads it; on the diagonal the exponential of that.
  * `wtArr w` is the transposed weight: entry (j, o) is w (o, j).
  * `biasArr b` is the bias as a one-row matrix: entry (0, o) is b o.
-/
import Idealize.ShloMosaic.PureOps.Ideal
import Idealize.ShloMosaic.Lib.ValueIdx

noncomputable section

namespace Cert.CovSpec

open Idealize.ShloMosaic Idealize.ShloMosaic.ValueIdx

abbrev Sq : Shape := ⟨2, ![512, 512]⟩
abbrev TriS : Shape := ⟨1, ![131328]⟩
abbrev Vec512 : Shape := ⟨1, ![512]⟩
abbrev Row1 : Shape := ⟨2, ![1, 512]⟩

/-- The sign of a word as `stablehlo.sign` gives it. -/
def sgn (x : BitVec 32) : BitVec 32 := if x = 0 then 0 else if x.msb then -1 else 1

/-- Floor division by two as jnp's `//` lowers it: the truncated quotient, less one when the signs differ and the
    remainder is not zero. -/
def fdiv2 (x : BitVec 32) : BitVec 32 :=
  Scalar.select
    (IntOp.andi (IntOp.cmpi .ne (sgn x) (sgn 2#32)) (IntOp.cmpi .ne (IntOp.remsi .host x 2#32) 0#32))
    (IntOp.subi (IntOp.divsi .host x 2#32) 1#32) (IntOp.divsi .host x 2#32)

/-- The row-major position of (r, c), r ≤ c, in the packed upper triangle of a 512 × 512 matrix. -/
def pos (r c : BitVec 32) : BitVec 32 :=
  IntOp.addi (IntOp.subi (IntOp.muli r 512#32) (fdiv2 (IntOp.muli r (IntOp.subi r 1#32)))) (IntOp.subi c r)

/-- `jnp.clip(·, 0, 131327)`. -/
def clipS (p : BitVec 32) : BitVec 32 := IntOp.minsi 131327#32 (IntOp.maxsi 0#32 p)

/-- `jnp.take` of a flat vector at one position: a negative position wraps once, a position outside the vector
    reads the fill value (a NaN pattern), one inside reads the element. -/
def takeS (tri : TriS.Idx → EReal) (p : BitVec 32) : EReal :=
  let p' := Scalar.select (IntOp.cmpi .slt p 0#32) (IntOp.addi p 131328#32) p
  Scalar.select (IntOp.andi (IntOp.cmpi .sge p' 0#32) (IntOp.cmpi .sle p' 131327#32))
    (tri (ix1 ⟨min p'.toInt.toNat (131328 - 1), by omega⟩)) (Ideal.ofBits .f32 0x7FC00000#32)

/-- One entry of Uᵀ from the masks and the position. -/
def entry (tri : TriS.Idx → EReal) (keep eq : BitVec 1) (p : BitVec 32) : EReal :=
  let v := Scalar.select keep (takeS tri p) (Ideal.ofBits .f32 0x00000000#32)
  Scalar.select eq (FloatOps.hostUnary (F := Ideal) (φ := .f32) .exp v) v

/-- Uᵀ as one array. -/
def utArr (tri : TriS.Idx → EReal) : Sq.Idx → EReal := fun i =>
  entry tri (IntOp.cmpi .sge (BitVec.ofNat 32 (i 0).val) (BitVec.ofNat 32 (i 1).val))
    (IntOp.cmpi .eq (BitVec.ofNat 32 (i 0).val) (BitVec.ofNat 32 (i 1).val))
    (clipS (pos (BitVec.ofNat 32 (i 1).val) (BitVec.ofNat 32 (i 0).val)))

/-- Wᵀ as one array. -/
def wtArr (w : Sq.Idx → EReal) : Sq.Idx → EReal := fun i => w (ix2 (i 1) (i 0))

/-- The bias as a one-row matrix. -/
def biasArr (b : Vec512.Idx → EReal) : Row1.Idx → EReal := fun i => b (ix1 (i 1))

end Cert.CovSpec

end
-- ==== Proof.MatSpec.lean ====
/-
  The two regions' results as whole-array functions of their operand arrays, index by index.

  * `mmArr A B` is the product of two 512 × 512 arrays: entry (p, q) is the sum over k of A (p, k) · B (k, q).
  * `linArr X C b` is the affine map of the 32768 rows of X: entry (r, q) is the sum over k of X (r, k) · C (k, q),
    plus the one-row matrix b at (0, q).
-/
import proofs.«149885_g2000505278659894_pallasbulk_154_2_alg».proof.Proof.HostSpec

noncomputable section

namespace Cert.CovSpec

open Idealize.ShloMosaic Idealize.ShloMosaic.ValueIdx

abbrev Rows : Shape := ⟨2, ![32768, 512]⟩

/-- The product of two 512 × 512 arrays. -/
def mmArr (A B : Sq.Idx → EReal) : Sq.Idx → EReal := fun i => ∑ k : Fin 512, A (ix2 (i 0) k) * B (ix2 k (i 1))

/-- Rows times a 512 × 512 array, plus a row. -/
def linArr (X : Rows.Idx → EReal) (C : Sq.Idx → EReal) (b : Row1.Idx → EReal) : Rows.Idx → EReal :=
  fun i => (∑ k : Fin 512, X (ix2 (i 0) k) * C (ix2 k (i 1))) + b (ix2 0 (i 1))

abbrev Batch : Shape := ⟨3, ![64, 512, 512]⟩

/-- The whole computation: the batch of 64 × 512 rows flattened to 32768 rows, mapped by `linArr` through the product
    Uᵀ · Wᵀ with the bias row, and the rows put back in their batch. -/
def resArr (x : Batch.Idx → EReal) (w : Sq.Idx → EReal) (tri : TriS.Idx → EReal) (b : Vec512.Idx → EReal)
    (h1 : Batch.ShapeCasts Rows) (h2 : Rows.ShapeCasts Batch) : Batch.Idx → EReal :=
  shapeCast Batch (linArr (shapeCast Rows x h1) (mmArr (utArr tri) (wtArr w)) (biasArr b)) h2

end Cert.CovSpec

end
-- ==== Proof.LibPlainMatmul.lean ====
/-
  A plain matrix product read at an index. For dimension numbers that contract the left operand's columns with the
  right operand's rows and have no batch axis, the product of an [M, K] by a [K, N] array into a zero accumulator,
  read at (p, q) over the extended reals, is the textbook sum over k of lhs (p, k) · rhs (k, q).
-/
import Idealize.ShloMosaic.PureOps.Ideal.Laws
import Idealize.ShloMosaic.Lib.ValueIdx

noncomputable section

namespace Idealize.ShloMosaic.PlainMatmul

open Idealize.ShloMosaic Idealize.ShloMosaic.ValueIdx

variable {M K N : Nat}

private theorem val_congr {n : Nat} {α : Fin n → Type} (f : (i : Fin n) → α i) (g : ∀ i, α i → Nat)
    (x y : Nat) (hx : x < n) (hy : y < n) (h : x = y) : g ⟨x, hx⟩ (f ⟨x, hx⟩) = g ⟨y, hy⟩ (f ⟨y, hy⟩) := by
  subst h; rfl

/-- The left operand's row coordinate is the output's row coordinate. -/
theorem lhsIdx_row (d : DotDims ⟨2, ![M, K]⟩ ⟨2, ![K, N]⟩ ⟨2, ![M, N]⟩)
    (hln : d.lhsNonContracting = [0]) (hlb : d.lhsBatch = [])
    (j : (⟨2, ![M, N]⟩ : Shape).Idx) (κ : d.contr.Idx) :
    (d.lhsIdx j κ (0 : Fin (⟨2, ![M, K]⟩ : Shape).rank)).val = (j (0 : Fin (⟨2, ![M, N]⟩ : Shape).rank)).val := by
  unfold DotDims.lhsIdx
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  rw [dif_neg hb, dif_pos hn]
  simp only [Fin.val_cast]
  exact val_congr j (fun _ v => v.val) _ 0 _ Nat.zero_lt_two (by simp [hlb, hln])

/-- The right operand's column coordinate is the output's column coordinate. -/
theorem rhsIdx_col (d : DotDims ⟨2, ![M, K]⟩ ⟨2, ![K, N]⟩ ⟨2, ![M, N]⟩)
    (hrn : d.rhsNonContracting = [1]) (hrb : d.rhsBatch = []) (hlb : d.lhsBatch = []) (hln : d.lhsNonContracting = [0])
    (j : (⟨2, ![M, N]⟩ : Shape).Idx) (κ : d.contr.Idx) :
    (d.rhsIdx j κ (1 : Fin (⟨2, ![K, N]⟩ : Shape).rank)).val = (j (1 : Fin (⟨2, ![M, N]⟩ : Shape).rank)).val := by
  unfold DotDims.rhsIdx
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  rw [dif_neg hb, dif_pos hn]
  simp only [Fin.val_cast]
  exact val_congr j (fun _ v => v.val) _ 1 _ Nat.one_lt_two (by simp [hlb, hln, hrn])

/-- The left operand's index at output (p, q) and contraction position k is (p, k). -/
theorem lhsIdx_plain (d : DotDims ⟨2, ![M, K]⟩ ⟨2, ![K, N]⟩ ⟨2, ![M, N]⟩)
    (hlc : d.lhsContracting = [1]) (hln : d.lhsNonContracting = [0]) (hlb : d.lhsBatch = [])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, _⟩ => exact lhsIdx_row d hln hlb (ix2 p q) _
  | ⟨1, _⟩ =>
    exact (d.lhsIdx_val_of_single (cl := (1 : Fin (⟨2, ![M, K]⟩ : Shape).rank)) hlc _ _).trans (contrEquiv1_symm_val d K hr hs k)

/-- The right operand's index at output (p, q) and contraction position k is (k, q). -/
theorem rhsIdx_plain (d : DotDims ⟨2, ![M, K]⟩ ⟨2, ![K, N]⟩ ⟨2, ![M, N]⟩)
    (hrc : d.rhsContracting = [0]) (hrn : d.rhsNonContracting = [1]) (hrb : d.rhsBatch = [])
    (hlb : d.lhsBatch = []) (hln : d.lhsNonContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, _⟩ =>
    exact (d.rhsIdx_val_of_single (cr := (0 : Fin (⟨2, ![K, N]⟩ : Shape).rank)) hrc _ _).trans (contrEquiv1_symm_val d K hr hs k)
  | ⟨1, _⟩ => exact rhsIdx_col d hrn hrb hlb hln (ix2 p q) _

/-- The product into a zero accumulator at (p, q) is the sum over k of lhs (p, k) · rhs (k, q). -/
theorem matmul_zero_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  rw [lhsIdx_plain d hlc hln hlb hr hs p q k, rhsIdx_plain d hrc hrn hrb hlb hln hr hs p q k]

end Idealize.ShloMosaic.PlainMatmul

end
-- ==== Proof.KFold.lean ====
/-
  The first region of the kernel's program: the product Uᵀ · Wᵀ computed in two column blocks of 256.
  At each of the two grid points the body multiplies the whole left array by one 512 × 256 column block of the right
  array; the two blocks tile the 512 × 512 result, so the array the region leaves is the whole product `mmArr`.
-/
import proofs.«149885_g2000505278659894_pallasbulk_154_2_alg».proof.Proof.Gen.KernelIdeal.Frame
import proofs.«149885_g2000505278659894_pallasbulk_154_2_alg».proof.Proof.MatSpec
import proofs.«149885_g2000505278659894_pallasbulk_154_2_alg».proof.Proof.LibPlainMatmul
import Idealize.ShloMosaic.Lib.Pipeline.Value

set_option maxRecDepth 16384

noncomputable section

namespace Cert.KernelIdeal.FoldVal

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.CovSpec

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an index: one column block of the product. -/
theorem pay_apply (x0 : FVec Ideal S512x512 .bf16) (x1 : FVec Ideal S512x256 .bf16) (p : Fin 512) (q : Fin 256) :
    k0_pay1 (F := Ideal) x0 x1 (ix2 p q) = ∑ k : Fin 512, x0 (ix2 p k) * x1 (ix2 k q) := by
  unfold k0_pay1
  show matmul dot_S512x512_S512x256_S512x256_1_0_0_1_n_n none (shapeCast S512x512 x0 shapeCasts_S512x512_S512x512)
    (shapeCast S512x256 x1 shapeCasts_S512x256_S512x256) (constant S512x256 .f32 0x00000000#32) (ix2 p q) = _
  rw [shapeCast_self, shapeCast_self]
  exact PlainMatmul.matmul_zero_apply dot_S512x512_S512x256_S512x256_1_0_0_1_n_n rfl rfl rfl rfl rfl rfl rfl rfl none x0 x1 p q

/-- The block computed from blocks of two arrays is the product of the arrays at the block's place. -/
theorem blk_eq (A B : Sq.Idx → EReal) (x0 : FVec Ideal S512x512 .bf16) (x1 : FVec Ideal S512x256 .bf16)
    (j : S512x256.Idx) (e : Sq.Idx)
    (h0 : ∀ k : Fin 512, x0 (ix2 (j 0) k) = A (ix2 (e 0) k))
    (h1 : ∀ k : Fin 512, x1 (ix2 k (j 1)) = B (ix2 k (e 1))) :
    k0_pay1 (F := Ideal) x0 x1 j = mmArr A B e := by
  obtain ⟨p, q, rfl⟩ : ∃ (p : Fin 512) (q : Fin 256), j = ix2 p q := ⟨j 0, j 1, eq_ix2 j⟩
  rw [pay_apply]
  unfold mmArr
  exact Finset.sum_congr rfl fun k _ => by rw [h0 k, h1 k]

/-- The printed index maps over the two grid points. -/
theorem idx_facts : ∀ t : Fin cfg0.N, win0_0.index t (0 : Fin 2) = 0 ∧ win0_0.index t (1 : Fin 2) = 0
    ∧ win0_1.index t (0 : Fin 2) = 0 ∧ win0_1.index t (1 : Fin 2) = win0_2.index t (1 : Fin 2)
    ∧ win0_2.index t (0 : Fin 2) = 0 ∧ win0_2.index t (1 : Fin 2) ≤ 1 :=
  (by decide +kernel : ∀ t : Fin grid0.N, _)

/-- Every column block is some point's. -/
theorem idx_onto : ∀ (q1 : Fin 2), ∃ t : Fin cfg0.N, win0_2.index t = ![0, q1.val] :=
  (by decide +kernel : ∀ (q1 : Fin 2), ∃ t : Fin grid0.N, win0_2.index t = ![0, q1.val])

/-- What point `t` writes back is block `t` of the product of the two arrays as the region finds them. -/
theorem flushed_eq (c : Dev nD) (t : Fin cfg0.N) :
    (dat0 V c).flushed 2 t = ((cfg0.win 2).blk t).view.read (Elt Ideal) (mmArr (V c main_v18) (V c main_v20)) := by
  show (cfg0.win 2).cut (grid0.coords t) ((dat0 V c).after 2 t) = _
  rw [after0_2]
  unfold out0_2
  rw [View.canon_unit_zero hz]
  simp only [View.ld_unit_zero (S := S512x512) hz, View.ld_unit_zero (S := S512x256) hz]
  obtain ⟨e0, e1, e2, e3, e4, e5⟩ := idx_facts t
  funext j
  refine blk_eq (V c main_v18) (V c main_v20) (iblk0 V c 0 t) (iblk0 V c 1 t) j (((cfg0.win 2).blk t).view.emb j) ?_ ?_
  · intro k
    show V c main_v18 (((cfg0.win 0).blk t).view.emb (ix2 (j 0) k)) = V c main_v18 (ix2 ((((cfg0.win 2).blk t).view.emb j) 0) k)
    refine congrArg (V c main_v18) ?_
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 512 + 1 * k.val = k.val; omega
  · intro k
    show V c main_v20 (((cfg0.win 1).blk t).view.emb (ix2 k (j 1))) = V c main_v20 (ix2 k ((((cfg0.win 2).blk t).view.emb j) 1))
    refine congrArg (V c main_v20) ?_
    funext a; apply Fin.ext
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega

/-- An index of the array is in point `t`'s block iff each coordinate is in the block's range on its axis. -/
theorem mem_blk (t : Fin cfg0.N) (i : S512x512.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v24).slice (win0_2.rect t)).set ↔ _
  rw [View.set_slice_whole, Rect.mem_set_unit]
  exact Iff.rfl

/-- The two column blocks cover the array. -/
theorem cover (i : S512x512.Idx) : ∃ t : Fin cfg0.N, (cfg0.win 2).flush t = true ∧ i ∈ ((cfg0.win 2).blk t).view.set := by
  have hi0 : (i 0).val < 512 := (i 0).isLt
  have hi1 : (i 1).val < 512 := (i 1).isLt
  obtain ⟨t, ht⟩ := idx_onto ⟨(i 1).val / 256, by omega⟩
  have q0 : win0_2.index t (0 : Fin 2) = 0 := congrFun ht 0
  have q1 : win0_2.index t (1 : Fin 2) = (i 1).val / 256 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 256 ≤ (i 1).val ∧ (i 1).val < win0_2.index t (1 : Fin 2) * 256 + 256; omega

/-- The array after the region: the whole product. -/
theorem final (c : Dev nD) : (dat0 V c).arrAt 2 cfg0.N = mmArr (V c main_v18) (V c main_v20) :=
  (dat0 V c).arrAt_eq_of_cover 2 (mmArr (V c main_v18) (V c main_v20)) (fun t _ => flushed_eq V c t) (cover)

end Cert.KernelIdeal.FoldVal

end
-- ==== Proof.KLin.lean ====
/-
  The second region: y = x · C + b over row blocks of 2048 rows. At each of the 16 grid points the body
  multiplies one block of 2048 rows of x by the whole 512 × 512 array C and adds the one-row matrix b to every row;
  the row blocks tile the 32768 × 512 result, so the array the region leaves is the whole affine map `linArr`.
-/
import proofs.«149885_g2000505278659894_pallasbulk_154_2_alg».proof.Proof.Gen.KernelIdeal.Frame
import proofs.«149885_g2000505278659894_pallasbulk_154_2_alg».proof.Proof.MatSpec
import proofs.«149885_g2000505278659894_pallasbulk_154_2_alg».proof.Proof.LibPlainMatmul
import Idealize.ShloMosaic.Lib.Pipeline.Value
import Idealize.ShloMosaic.Lib.ValueLayout

set_option maxRecDepth 16384

noncomputable section

namespace Cert.KernelIdeal.LinVal

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.CovSpec

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an index: a row of the block times a column of C, plus the row matrix's entry. -/
theorem pay_apply (x0 : FVec Ideal S2048x512 .f32) (x1 : FVec Ideal S512x512 .bf16) (x2 : FVec Ideal S1x512 .f32)
    (p : Fin 2048) (q : Fin 512) :
    k1_pay1 (F := Ideal) x0 x1 x2 (ix2 p q) = (∑ k : Fin 512, x0 (ix2 p k) * x1 (ix2 k q)) + x2 (ix2 (0 : Fin 1) q) := by
  unfold k1_pay1
  show matmul dot_S2048x512_S512x512_S2048x512_1_0_0_1_n_n none (truncf .bf16 (shapeCast S2048x512 x0 shapeCasts_S2048x512_S2048x512) bitsLt_bf16_f32)
    (shapeCast S512x512 x1 shapeCasts_S512x512_S512x512) (constant S2048x512 .f32 0x00000000#32) (ix2 p q)
      + broadcastTo S2048x512 (shapeCast S1x512 x2 shapeCasts_S1x512_S1x512) broadcasts_S1x512_S2048x512 (ix2 p q) = _
  rw [shapeCast_self, shapeCast_self, shapeCast_self, broadcastTo_1b_ab_apply]
  exact congrArg (· + x2 (ix2 (0 : Fin 1) q))
    (PlainMatmul.matmul_zero_apply dot_S2048x512_S512x512_S2048x512_1_0_0_1_n_n rfl rfl rfl rfl rfl rfl rfl rfl none (truncf .bf16 x0 bitsLt_bf16_f32) x1 p q)

/-- The block computed from blocks of the three arrays is the affine map of the arrays at the block's place. -/
theorem blk_eq (X : Rows.Idx → EReal) (C : Sq.Idx → EReal) (b : Row1.Idx → EReal)
    (x0 : FVec Ideal S2048x512 .f32) (x1 : FVec Ideal S512x512 .bf16) (x2 : FVec Ideal S1x512 .f32)
    (j : S2048x512.Idx) (e : Rows.Idx)
    (h0 : ∀ k : Fin 512, x0 (ix2 (j 0) k) = X (ix2 (e 0) k))
    (h1 : ∀ k : Fin 512, x1 (ix2 k (j 1)) = C (ix2 k (e 1)))
    (h2 : x2 (ix2 (0 : Fin 1) (j 1)) = b (ix2 (0 : Fin 1) (e 1))) :
    k1_pay1 (F := Ideal) x0 x1 x2 j = linArr X C b e := by
  obtain ⟨p, q, rfl⟩ : ∃ (p : Fin 2048) (q : Fin 512), j = ix2 p q := ⟨j 0, j 1, eq_ix2 j⟩
  rw [pay_apply]
  unfold linArr
  rw [h2]
  exact congrArg (· + b (ix2 (0 : Fin 1) (e 1))) (Finset.sum_congr rfl fun k _ => by rw [h0 k, h1 k])

/-- The printed index maps over the grid. -/
theorem idx_facts : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 15 ∧ win1_3.index t (1 : Fin 2) = 0 :=
  (by decide +kernel : ∀ t : Fin grid1.N, _)

/-- Every row block is some point's. -/
theorem idx_onto : ∀ (q0 : Fin 16), ∃ t : Fin cfg1.N, win1_3.index t = ![q0.val, 0] :=
  (by decide +kernel : ∀ (q0 : Fin 16), ∃ t : Fin grid1.N, win1_3.index t = ![q0.val, 0])

/-- What point `t` writes back is block `t` of the affine map of the three arrays as the region finds them. -/
theorem flushed_eq (c : Dev nD) (t : Fin cfg1.N) :
    (dat1 V c).flushed 3 t = ((cfg1.win 3).blk t).view.read (Elt Ideal) (linArr (V c main_v25) (V c main_v24) (V c main_v23)) := by
  show (cfg1.win 3).cut (grid1.coords t) ((dat1 V c).after 3 t) = _
  rw [after1_3]
  unfold out1_3
  rw [View.canon_unit_zero hz]
  simp only [View.ld_unit_zero (S := S2048x512) hz, View.ld_unit_zero (S := S512x512) hz, View.ld_unit_zero (S := S1x512) hz]
  obtain ⟨e0, e1, e2, e3, e4, e5, e6, e7⟩ := idx_facts t
  funext j
  refine blk_eq (V c main_v25) (V c main_v24) (V c main_v23) (iblk1 V c 0 t) (iblk1 V c 1 t) (iblk1 V c 2 t) j
    (((cfg1.win 3).blk t).view.emb j) ?_ ?_ ?_
  · intro k
    show V c main_v25 (((cfg1.win 0).blk t).view.emb (ix2 (j 0) k)) = V c main_v25 (ix2 ((((cfg1.win 3).blk t).view.emb j) 0) k)
    refine congrArg (V c main_v25) ?_
    funext a; apply Fin.ext
    match a with
    | ⟨0, _⟩ => show win1_0.index t (0 : Fin 2) * 2048 + 1 * (j 0).val = win1_3.index t (0 : Fin 2) * 2048 + 1 * (j 0).val; omega
    | ⟨1, _⟩ => show win1_0.index t (1 : Fin 2) * 512 + 1 * k.val = k.val; omega
  · intro k
    show V c main_v24 (((cfg1.win 1).blk t).view.emb (ix2 k (j 1))) = V c main_v24 (ix2 k ((((cfg1.win 3).blk t).view.emb j) 1))
    refine congrArg (V c main_v24) ?_
    funext a; apply Fin.ext
    match a with
    | ⟨0, _⟩ => show win1_1.index t (0 : Fin 2) * 512 + 1 * k.val = k.val; omega
    | ⟨1, _⟩ => show win1_1.index t (1 : Fin 2) * 512 + 1 * (j 1).val = win1_3.index t (1 : Fin 2) * 512 + 1 * (j 1).val; omega
  · show V c main_v23 (((cfg1.win 2).blk t).view.emb (ix2 (0 : Fin 1) (j 1))) = V c main_v23 (ix2 (0 : Fin 1) ((((cfg1.win 3).blk t).view.emb j) 1))
    refine congrArg (V c main_v23) ?_
    funext a; apply Fin.ext
    match a with
    | ⟨0, _⟩ => show win1_2.index t (0 : Fin 2) * 1 + 1 * 0 = 0; omega
    | ⟨1, _⟩ => show win1_2.index t (1 : Fin 2) * 512 + 1 * (j 1).val = win1_3.index t (1 : Fin 2) * 512 + 1 * (j 1).val; omega

/-- An index of the array is in point `t`'s block iff each coordinate is in the block's range on its axis. -/
theorem mem_blk (t : Fin cfg1.N) (i : S32768x512.Idx) :
    i ∈ ((cfg1.win 3).blk t).view.set ↔ ∀ a : Fin 2, win1_3.index t a * S2048x512.size a ≤ (i a).val ∧ (i a).val < win1_3.index t a * S2048x512.size a + S2048x512.size a := by
  show i ∈ ((View.whole main_v26).slice (win1_3.rect t)).set ↔ _
  rw [View.set_slice_whole, Rect.mem_set_unit]
  exact Iff.rfl

/-- The row blocks cover the array. -/
theorem cover (i : S32768x512.Idx) : ∃ t : Fin cfg1.N, (cfg1.win 3).flush t = true ∧ i ∈ ((cfg1.win 3).blk t).view.set := by
  have hi0 : (i 0).val < 32768 := (i 0).isLt
  have hi1 : (i 1).val < 512 := (i 1).isLt
  obtain ⟨t, ht⟩ := idx_onto ⟨(i 0).val / 2048, by omega⟩
  have q0 : win1_3.index t (0 : Fin 2) = (i 0).val / 2048 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 512 ≤ (i 1).val ∧ (i 1).val < win1_3.index t (1 : Fin 2) * 512 + 512; omega

/-- The array after the region: the whole affine map. -/
theorem final (c : Dev nD) : (dat1 V c).arrAt 3 cfg1.N = linArr (V c main_v25) (V c main_v24) (V c main_v23) :=
  (dat1 V c).arrAt_eq_of_cover 3 (linArr (V c main_v25) (V c main_v24) (V c main_v23)) (fun t _ => flushed_eq V c t) (cover)

end Cert.KernelIdeal.LinVal

end
-- ==== Proof.HostLemmas.lean ====
/-
  Lemmas both programs' host stretches share.

  * The `jnp.take` of the packed vector at an array of positions, read at one index: the chain of operations that
    wraps a negative position once, tests the wrapped position against the vector's bounds (an and-reduction over a
    unit axis), gathers with the position clamped, and selects the fill value outside the bounds, is `takeS` of the
    position at that index.
  * The position p(b, a) = 512·b − ⌊b(b−1)/2⌋ + (a − b) of an entry on or above the diagonal (b ≤ a < 512) lies in
    [0, 131327], so clipping it into that range changes nothing. The row part 512·b − ⌊b(b−1)/2⌋ is computed for
    each of the 512 rows; the column part a − b adds at most 511 − b to it without wrapping.
  * An entry of Uᵀ above the diagonal is zero whatever its position.
-/
import proofs.«149885_g2000505278659894_pallasbulk_154_2_alg».proof.Proof.HostSpec
import Idealize.ShloMosaic.Lib.ValueIdx
import Idealize.ShloMosaic.Lib.Pipeline.Value
import Idealize.ShloMosaic.PureOps.Reduce

noncomputable section

namespace Cert.CovSpec

open Idealize.ShloMosaic Idealize.ShloMosaic.ValueIdx

abbrev S0 : Shape := ⟨0, ![]⟩
abbrev S1 : Shape := ⟨1, ![1]⟩
abbrev S111 : Shape := ⟨3, ![1, 1, 1]⟩
abbrev Sq1 : Shape := ⟨3, ![512, 512, 1]⟩

/-! ## `jnp.take` read at an index -/

/-- The wrapped position array of `jnp.take`: a negative position has the vector's length added once. -/
def wrapIdx (hb : S0.BroadcastsInDim Sq (![] : Fin 0 → Fin Sq.rank)) (idx : IVec Sq 32) : IVec Sq 32 :=
  select (cmpi .slt idx (broadcastInDim Sq ![] hb (constantI S0 32 0#32)))
    (addi idx (broadcastInDim Sq ![] hb (constantI S0 32 131328#32))) idx

theorem andi_one (x : BitVec 1) : IntOp.andi x 1#1 = x := by revert x; decide

/-- A fold over an index type of one element is one application of the operation. -/
theorem fold_fin_one {β : Type} (op : β → β → β) [Std.Commutative op] [Std.Associative op] (b : β) (n : Nat) (hn : n = 1)
    (f : Fin n → β) : (Finset.univ : Finset (Fin n)).fold op b f = op (f ⟨0, by omega⟩) b := by
  subst hn
  rw [Finset.univ_unique, Finset.fold_singleton]
  rfl

theorem take_wrap_eq (tri : TriS.Idx → EReal) (idx : IVec Sq 32)
    (hb : S0.BroadcastsInDim Sq (![] : Fin 0 → Fin Sq.rank))
    (hb3 : Sq.BroadcastsInDim Sq1 (![0, 1] : Fin 2 → Fin Sq1.rank))
    (hb0 : S0.BroadcastsInDim Sq1 (![] : Fin 0 → Fin Sq1.rank))
    (hb1 : S1.BroadcastsInDim S111 (![2] : Fin 1 → Fin S111.rank))
    (hb111 : S111.BroadcastsInDim Sq1 (![0, 1, 2] : Fin 3 → Fin Sq1.rank))
    (hred : Sq1.ReducesTo [2] Sq) (hS : 0 < S0.numel)
    (wf : GatherDims.WF TriS Sq1 Sq [] [0] [] [0] [] 2 ![1]) :
    (select
      (Host.reduce IntOp.andi
        (andi
          (cmpi .sge (broadcastInDim Sq1 ![0, 1] hb3 (wrapIdx hb idx)) (broadcastInDim Sq1 ![] hb0 (constantI S0 32 0#32)))
          (cmpi .sle (broadcastInDim Sq1 ![0, 1] hb3 (wrapIdx hb idx))
            (broadcastInDim Sq1 ![0, 1, 2] hb111 (broadcastInDim S111 ![2] hb1 (constantI S1 32 131327#32)))))
        (constantI S0 1 1#1) hred hS)
      (Host.gather (takeDims 131328 512 512 wf) tri (broadcastInDim Sq1 ![0, 1] hb3 (wrapIdx hb idx)))
      (broadcastInDim Sq ![] hb (constant (F := Ideal) S0 .f32 2143289344#32)) : Sq.Idx → EReal)
    = fun i => takeS tri (idx i) := by
  funext i
  obtain ⟨a, b, rfl⟩ : ∃ (a b : Fin 512), i = ix2 a b := ⟨i 0, i 1, eq_ix2 i⟩
  have hR : Sq1.Reduces [2] Sq := by decide
  -- the widened position array at any index over (a, b) is the wrapped position at (a, b)
  have hI : ∀ j3 : Sq1.Idx, (j3 0).val = a.val → (j3 1).val = b.val →
      broadcastInDim Sq1 ![0, 1] hb3 (wrapIdx hb idx) j3 = wrapIdx hb idx (ix2 a b) := by
    intro j3 h0 h1
    refine broadcastInDim_apply _ hb3 _ j3 (ix2 a b) fun a' => ?_
    match a' with
    | ⟨0, _⟩ => exact h0.symm
    | ⟨1, _⟩ => exact h1.symm
  have hW : wrapIdx hb idx (ix2 a b)
      = Scalar.select (IntOp.cmpi .slt (idx (ix2 a b)) 0#32) (IntOp.addi (idx (ix2 a b)) 131328#32) (idx (ix2 a b)) := rfl
  rw [select_apply, Host.reduce_eq_fold_single IntOp.andi _ _ hred hR hS, gather_take_apply (by decide) wf]
  rw [fold_fin_one IntOp.andi _ (Sq1.size 2) rfl]
  have hG := hI (takeIdx (ix2 a b)) rfl rfl
  have hL := hI (hR.lift (ix2 a b) ⟨0, by decide⟩) rfl rfl
  show Scalar.select (IntOp.andi (IntOp.andi
      (IntOp.cmpi .sge (broadcastInDim Sq1 ![0, 1] hb3 (wrapIdx hb idx) (hR.lift (ix2 a b) ⟨0, by decide⟩)) 0#32)
      (IntOp.cmpi .sle (broadcastInDim Sq1 ![0, 1] hb3 (wrapIdx hb idx) (hR.lift (ix2 a b) ⟨0, by decide⟩)) 131327#32)) 1#1) _ _ = _
  simp only [hG, hL, andi_one, hW]
  rfl

/-- THE TAKE CHAIN AS ONE ARRAY: `takeS` of the position, index by index. -/
theorem take_eq (tri : TriS.Idx → EReal) (idx : IVec Sq 32)
    (hb : S0.BroadcastsInDim Sq (![] : Fin 0 → Fin Sq.rank))
    (hb3 : Sq.BroadcastsInDim Sq1 (![0, 1] : Fin 2 → Fin Sq1.rank))
    (hb0 : S0.BroadcastsInDim Sq1 (![] : Fin 0 → Fin Sq1.rank))
    (hb1 : S1.BroadcastsInDim S111 (![2] : Fin 1 → Fin S111.rank))
    (hb111 : S111.BroadcastsInDim Sq1 (![0, 1, 2] : Fin 3 → Fin Sq1.rank))
    (hred : Sq1.ReducesTo [2] Sq) (hS : 0 < S0.numel)
    (wf : GatherDims.WF TriS Sq1 Sq [] [0] [] [0] [] 2 ![1]) :
    (select
      (Host.reduce IntOp.andi
        (andi
          (cmpi .sge (broadcastInDim Sq1 ![0, 1] hb3 (select (cmpi .slt idx (broadcastInDim Sq ![] hb (constantI S0 32 0#32)))
            (addi idx (broadcastInDim Sq ![] hb (constantI S0 32 131328#32))) idx)) (broadcastInDim Sq1 ![] hb0 (constantI S0 32 0#32)))
          (cmpi .sle (broadcastInDim Sq1 ![0, 1] hb3 (select (cmpi .slt idx (broadcastInDim Sq ![] hb (constantI S0 32 0#32)))
            (addi idx (broadcastInDim Sq ![] hb (constantI S0 32 131328#32))) idx))
            (broadcastInDim Sq1 ![0, 1, 2] hb111 (broadcastInDim S111 ![2] hb1 (constantI S1 32 131327#32)))))
        (constantI S0 1 1#1) hred hS)
      (Host.gather (takeDims 131328 512 512 wf) tri (broadcastInDim Sq1 ![0, 1] hb3 (select (cmpi .slt idx (broadcastInDim Sq ![] hb (constantI S0 32 0#32)))
            (addi idx (broadcastInDim Sq ![] hb (constantI S0 32 131328#32))) idx)))
      (broadcastInDim Sq ![] hb (constant (F := Ideal) S0 .f32 2143289344#32)) : Sq.Idx → EReal)
    = fun i => takeS tri (idx i) :=
  take_wrap_eq tri idx hb hb3 hb0 hb1 hb111 hred hS wf

/-! ## The position of an entry on or above the diagonal is inside the packed vector -/

/-- The part of the position that depends on the row only. -/
def rowBase (r : BitVec 32) : BitVec 32 :=
  IntOp.subi (IntOp.muli r 512#32) (fdiv2 (IntOp.muli r (IntOp.subi r 1#32)))

theorem pos_eq (r c : BitVec 32) : pos r c = rowBase r + (c - r) := rfl

set_option maxRecDepth 100000 in
/-- Row by row: the row part plus the largest column part stays below the vector's length. -/
theorem rowBase_bound : ∀ r : Fin 512, (rowBase (BitVec.ofNat 32 r.val)).toNat + (511 - r.val) ≤ 131327 := by
  decide +kernel

theorem pos_toNat_le (b a : Fin 512) (h : b.val ≤ a.val) :
    (pos (BitVec.ofNat 32 b.val) (BitVec.ofNat 32 a.val)).toNat ≤ 131327 := by
  have hb := rowBase_bound b
  have ha := a.isLt
  have hbl := b.isLt
  rw [pos_eq, BitVec.toNat_add, BitVec.toNat_sub, BitVec.toNat_ofNat, BitVec.toNat_ofNat]
  omega

theorem clipS_of_le (p : BitVec 32) (h : p.toNat ≤ 131327) : clipS p = p := by
  have hi : p.toInt = (p.toNat : Int) := BitVec.toInt_eq_toNat_of_lt (by omega)
  unfold clipS IntOp.minsi IntOp.maxsi
  have h1 : p.slt 0#32 = false := by
    rw [BitVec.slt_eq_decide, hi]; simp
  rw [h1]
  simp only [Bool.false_eq_true, if_false]
  have h2 : (131327#32).slt p = false := by
    rw [BitVec.slt_eq_decide, hi]
    have : (131327#32).toInt = 131327 := by decide
    rw [this]; simp; omega
  rw [h2]; simp

/-- Clipping the position of an entry on or above the diagonal changes nothing. -/
theorem clip_pos (b a : Fin 512) (h : b.val ≤ a.val) :
    clipS (pos (BitVec.ofNat 32 b.val) (BitVec.ofNat 32 a.val)) = pos (BitVec.ofNat 32 b.val) (BitVec.ofNat 32 a.val) :=
  clipS_of_le _ (pos_toNat_le b a h)

/-! ## The mask "on or below the diagonal" -/

theorem toInt_ofNat_small (a : Fin 512) : (BitVec.ofNat 32 a.val).toInt = (a.val : Int) := by
  have ha := a.isLt
  have hn : (BitVec.ofNat 32 a.val).toNat = a.val := by rw [BitVec.toNat_ofNat]; omega
  rw [BitVec.toInt_eq_toNat_of_lt (by omega), hn]

theorem sge_ofNat (a b : Fin 512) :
    IntOp.cmpi .sge (BitVec.ofNat 32 a.val) (BitVec.ofNat 32 b.val) = if b.val ≤ a.val then 1#1 else 0#1 := by
  unfold IntOp.cmpi
  simp only
  rw [BitVec.sle_eq_decide, toInt_ofNat_small, toInt_ofNat_small]
  by_cases h : b.val ≤ a.val
  · rw [if_pos h]; simp [h]
  · rw [if_neg h]; simp [h]

/-- An entry of Uᵀ whose position is masked to zero above the diagonal (the kernel's order of operations) is the
    entry whose position is clipped (the reference's). -/
theorem entry_mask_eq_clip (tri : TriS.Idx → EReal) (e : BitVec 1) (a b : Fin 512) :
    entry tri (IntOp.cmpi .sge (BitVec.ofNat 32 a.val) (BitVec.ofNat 32 b.val)) e
        (Scalar.select (IntOp.cmpi .sge (BitVec.ofNat 32 a.val) (BitVec.ofNat 32 b.val))
          (pos (BitVec.ofNat 32 b.val) (BitVec.ofNat 32 a.val)) 0#32)
      = entry tri (IntOp.cmpi .sge (BitVec.ofNat 32 a.val) (BitVec.ofNat 32 b.val)) e
        (clipS (pos (BitVec.ofNat 32 b.val) (BitVec.ofNat 32 a.val))) := by
  rw [sge_ofNat]
  by_cases h : b.val ≤ a.val
  · rw [if_pos h, select_one, clip_pos b a h]
  · rw [if_neg h]
    unfold entry
    simp only [select_zero]

end Cert.CovSpec

end
-- ==== Proof.LibScatterRows.lean ====
/-
  Reading a row scatter and a row gather at one index.

  A scatter whose body returns the update ("set") is a left fold over the update indices in row-major order; each step
  overwrites the one result element the update lands at, when it lands inside the operand. Read at one result index,
  the fold returns the operand's element when no update lands there, and the update's element when exactly one update
  index lands there. The first part of the file proves this for an arbitrary fold of that kind and for
  `Host.scatter` at any shapes; the second part computes where an update lands for the dimension numbers of a
  scatter of rows `[32, 512, 1024]` into `[32, 33, 12, 1024]` at index vectors `[32, 512, 3]`; the third reads a
  gather of rows along the middle axis.
-/
import Idealize.ShloMosaic.PureOps.ShapeOps
import Idealize.ShloMosaic.PureOps.Dims
import Idealize.ShloMosaic.Lib.ValueIdx

namespace Cert.ScatterRows

open Idealize.ShloMosaic Idealize.ShloMosaic.ValueIdx

/-! ## A fold of overwriting steps, read at one index -/

section Fold
variable {ι β γ : Type}

/-- A fold of steps each of which leaves the element at `i'` alone (its target `g n` is not `i'`) leaves the
    element at `i'` as it was. -/
theorem foldl_miss (g : γ → Option ι) (step : (ι → β) → γ → (ι → β)) (i' : ι)
    (hother : ∀ r n, g n ≠ some i' → step r n i' = r i') :
    ∀ (l : List γ) (x : ι → β), (∀ n ∈ l, g n ≠ some i') → l.foldl step x i' = x i' := by
  intro l
  induction l with
  | nil => intro x _; rfl
  | cons a t ih =>
    intro x h
    rw [List.foldl_cons, ih (step x a) (fun n hn => h n (List.mem_cons_of_mem a hn)),
      hother x a (h a List.mem_cons_self)]

/-- A fold of overwriting steps over a list without repeats in which `n0` is the only entry that targets `i'`
    leaves the value `u n0` at `i'`: the steps before `n0` are overwritten by it, the steps after it leave
    `i'` alone. -/
theorem foldl_hit (g : γ → Option ι) (u : γ → β) (step : (ι → β) → γ → (ι → β)) (i' : ι)
    (hhit : ∀ r n, g n = some i' → step r n i' = u n)
    (hother : ∀ r n, g n ≠ some i' → step r n i' = r i') (n0 : γ) (h0 : g n0 = some i') :
    ∀ (l : List γ) (x : ι → β), l.Nodup → n0 ∈ l → (∀ n ∈ l, g n = some i' → n = n0) →
      l.foldl step x i' = u n0 := by
  intro l
  induction l with
  | nil => intro x _ hmem _; exact absurd hmem List.not_mem_nil
  | cons a t ih =>
    intro x hnd hmem huniq
    rw [List.foldl_cons]
    rw [List.nodup_cons] at hnd
    by_cases ha : n0 = a
    · subst ha
      rw [foldl_miss g step i' hother t (step x n0), hhit x n0 h0]
      intro n hn hg
      have := huniq n (List.mem_cons_of_mem _ hn) hg
      subst this
      exact hnd.1 hn
    · have hmem' : n0 ∈ t := by
        rcases List.mem_cons.1 hmem with h | h
        · exact absurd h ha
        · exact h
      exact ih (step x a) hnd.2 hmem' (fun n hn => huniq n (List.mem_cons_of_mem _ hn))

end Fold

/-! ## `Host.scatter` with the body "return the update", read at one index -/

section Scatter
variable {α : Type} {s si u : Shape} {w : Nat}

/-- No update index lands at `i'`: the result's element there is the operand's. -/
theorem scatter_set_apply_miss (d : ScatterDims s si u) (x : s.Idx → α) (idx : IVec si w) (upd : u.Idx → α)
    (i' : s.Idx) (h : ∀ j : u.Idx, d.resultIdx? j idx ≠ some i') :
    Host.scatter d (fun _ b => b) x idx upd i' = x i' := by
  unfold Host.scatter
  refine foldl_miss (fun n => d.resultIdx? (u.rowMajor.symm n) idx) _ i' ?_ _ x (fun n _ => h _)
  intro r n hn
  dsimp only at hn ⊢
  generalize d.resultIdx? (u.rowMajor.symm n) idx = o at hn ⊢
  cases o with
  | none => rfl
  | some i => exact if_neg (fun e => hn (by rw [e]))

/-- Exactly one update index `j0` lands at `i'`: the result's element there is the update's at `j0`. -/
theorem scatter_set_apply_hit (d : ScatterDims s si u) (x : s.Idx → α) (idx : IVec si w) (upd : u.Idx → α)
    (i' : s.Idx) (j0 : u.Idx) (h0 : d.resultIdx? j0 idx = some i')
    (huniq : ∀ j : u.Idx, d.resultIdx? j idx = some i' → j = j0) :
    Host.scatter d (fun _ b => b) x idx upd i' = upd j0 := by
  unfold Host.scatter
  have e : upd j0 = upd (u.rowMajor.symm (u.rowMajor j0)) := by rw [Equiv.symm_apply_apply]
  rw [e]
  refine foldl_hit (fun n => d.resultIdx? (u.rowMajor.symm n) idx) (fun n => upd (u.rowMajor.symm n)) _ i' ?_ ?_
    (u.rowMajor j0) ?_ (List.finRange u.numel) x (List.nodup_finRange _) (List.mem_finRange _) ?_
  · intro r n hn
    dsimp only at hn ⊢
    generalize d.resultIdx? (u.rowMajor.symm n) idx = o at hn ⊢
    cases o with
    | none => exact absurd hn (by simp)
    | some i => exact if_pos (Option.some.inj hn).symm
  · intro r n hn
    dsimp only at hn ⊢
    generalize d.resultIdx? (u.rowMajor.symm n) idx = o at hn ⊢
    cases o with
    | none => rfl
    | some i => exact if_neg (fun e => hn (by rw [e]))
  · show d.resultIdx? (u.rowMajor.symm (u.rowMajor j0)) idx = some i'
    rw [Equiv.symm_apply_apply]; exact h0
  · intro n _ hn
    have := huniq _ hn
    rw [← this, Equiv.apply_symm_apply]

end Scatter

/-! ## The literal shapes: a scatter of rows into `[32, 33, 12, 1024]` and a gather of rows along the middle axis -/

/-- The scatter's operand and result. -/
abbrev SO : Shape := ⟨4, ![32, 33, 12, 1024]⟩
/-- The scatter indices: one index vector of three components per update row. -/
abbrev SI : Shape := ⟨3, ![32, 512, 3]⟩
/-- The updates (and the gather's operand and result): `32 × 512` rows of `1024` elements. -/
abbrev SU : Shape := ⟨3, ![32, 512, 1024]⟩
/-- The gather's start indices: one scalar per result row. -/
abbrev GI : Shape := ⟨3, ![32, 512, 1]⟩

/-! ## The gather of rows along the middle axis, read at one index

Result element `(b, i, h)` is the operand's at `(b, k, h)` where `k` is the start index `idx[b, i, 0]` read signed and
clamped into `[0, 511]`; for a start index already in that range the clamp is the identity. Axis `0` is a batching
axis (start `0`, batching coordinate `b`, no offset), axis `1` is the collapsed axis the start index names (start
`k`, nothing else), axis `2` is the offset axis (start `0`, offset coordinate `h`). -/

section Gather
variable {α : Type}

/-- THE ROW GATHER READ AT `(b, i, h)`, for a start index `idx[b, i, 0] = k` in range. -/
theorem gather_rows_apply (g : GatherDims SU GI SU) (g1 : g.offsetDims = [2]) (g2 : g.collapsedSliceDims = [1])
    (g3 : g.operandBatchingDims = [0]) (g4 : g.startIndicesBatchingDims = [0]) (g5 : g.startIndexMap = [1])
    (g6 : g.indexVectorDim = 2) (g7 : g.sliceSizes = ![1, 1, 1024])
    (x : SU.Idx → α) (idx : IVec GI 32) (b : Fin 32) (i : Fin 512) (hh : Fin 1024) (k : Fin 512)
    (hk : (idx (ix3 b i 0)).toInt = k.val) :
    Host.gather g x idx (ix3 b i hh) = x (ix3 b k hh) := by
  obtain ⟨od, cd, ob, sb, sm, iv, ss, wf⟩ := g
  dsimp only at g1 g2 g3 g4 g5 g6 g7
  subst g1 g2 g3 g4 g5 g6 g7
  set d : GatherDims SU GI SU := ⟨[2], [1], [0], [0], [1], 2, ![1, 1, 1024], wf⟩ with hd
  unfold Host.gather
  congr 1
  funext a
  refine Fin.ext ?_
  show d.start (ix3 b i hh) idx a + d.batchCoord (ix3 b i hh) a + d.offCoord (ix3 b i hh) a = _
  match a with
  | ⟨0, _⟩ =>
    have e1 : d.start (ix3 b i hh) idx ⟨0, by decide⟩ = 0 := rfl
    have e2 : d.batchCoord (ix3 b i hh) ⟨0, by decide⟩ = b.val := rfl
    have e3 : d.offCoord (ix3 b i hh) ⟨0, by decide⟩ = 0 := rfl
    rw [e1, e2, e3]; simp
  | ⟨1, _⟩ =>
    have e2 : d.batchCoord (ix3 b i hh) ⟨1, by decide⟩ = 0 := rfl
    have e3 : d.offCoord (ix3 b i hh) ⟨1, by decide⟩ = 0 := rfl
    have hsi : d.siIdx (ix3 b i hh) ⟨0, Nat.zero_lt_one⟩ = ix3 b i 0 := by
      funext c; refine Fin.ext ?_
      match c with
      | ⟨0, _⟩ => rfl
      | ⟨1, _⟩ => rfl
      | ⟨2, _⟩ => rfl
    have e1 : d.start (ix3 b i hh) idx ⟨1, by decide⟩
        = min (idx (d.siIdx (ix3 b i hh) ⟨0, Nat.zero_lt_one⟩)).toInt.toNat 511 := rfl
    rw [e1, e2, e3, hsi, hk]
    have := k.isLt
    simp; omega
  | ⟨2, _⟩ =>
    have e1 : d.start (ix3 b i hh) idx ⟨2, by decide⟩ = 0 := rfl
    have e2 : d.batchCoord (ix3 b i hh) ⟨2, by decide⟩ = 0 := rfl
    have e3 : d.offCoord (ix3 b i hh) ⟨2, by decide⟩ = hh.val := rfl
    rw [e1, e2, e3]; simp

end Gather

/-! ## Where an update row lands, and the scatter of rows read at one index

The dimension numbers: update window axis `[2]`, inserted window axes `[0, 1, 2]`, scatter axes to operand axes
`[0, 1, 2]`, index vector axis `2`. Update index `(b', l', h)` reads its index vector `idx[b', l', ·]`; on operand axes
`0, 1, 2` its result coordinate is the vector's component (read signed, window coordinate `0`), on axis `3` it is the
window coordinate `h` (start `0`). The update lands inside the operand exactly when the three components are in
`[0, 32) × [0, 33) × [0, 12)`. -/

section Rows
variable {α : Type}

/-- Update row `(b', l')` targets the operand's row `(b, r, p)`: its index vector, read signed, is `(b, r, p)`. -/
def Targets (idx : IVec SI 32) (b' : Fin 32) (l' : Fin 512) (b : Fin 32) (r : Fin 33) (p : Fin 12) : Prop :=
  (idx (ix3 b' l' 0)).toInt = b.val ∧ (idx (ix3 b' l' 1)).toInt = r.val ∧ (idx (ix3 b' l' 2)).toInt = p.val

/-- WHERE AN UPDATE LANDS: update index `(b', l', h)` lands at the operand index `(b, r, p, h')` exactly when its row
    targets `(b, r, p)` and `h = h'`. -/
theorem resultIdx_eq_some_iff (d : ScatterDims SO SI SU) (h1 : d.updateWindowDims = [2])
    (h2 : d.insertedWindowDims = [0, 1, 2]) (h3 : d.scatterDimsToOperandDims = [0, 1, 2]) (h4 : d.indexVectorDim = 2)
    (idx : IVec SI 32) (b' : Fin 32) (l' : Fin 512) (hh : Fin 1024) (b : Fin 32) (r : Fin 33) (p : Fin 12)
    (hh' : Fin 1024) :
    d.resultIdx? (ix3 b' l' hh) idx = some (ix4 b r p hh') ↔ Targets idx b' l' b r p ∧ hh = hh' := by
  obtain ⟨uw, iw, sd, iv, wf⟩ := d
  dsimp only at h1 h2 h3 h4
  subst h1 h2 h3 h4
  set d : ScatterDims SO SI SU := ⟨[2], [0, 1, 2], [0, 1, 2], 2, wf⟩ with hd
  have hsi : ∀ c : Fin 3, d.siIdx (ix3 b' l' hh) c = ix3 b' l' c := by
    intro c; funext a; refine Fin.ext ?_
    match a with
    | ⟨0, _⟩ => rfl
    | ⟨1, _⟩ => rfl
    | ⟨2, _⟩ => rfl
  have w0 : d.window (ix3 b' l' hh) ⟨0, by decide⟩ = 0 := rfl
  have w1 : d.window (ix3 b' l' hh) ⟨1, by decide⟩ = 0 := rfl
  have w2 : d.window (ix3 b' l' hh) ⟨2, by decide⟩ = 0 := rfl
  have w3 : d.window (ix3 b' l' hh) ⟨3, by decide⟩ = hh.val := rfl
  have t0 : d.start (ix3 b' l' hh) idx ⟨0, by decide⟩ = (idx (ix3 b' l' 0)).toInt := by rw [← hsi 0]; rfl
  have t1 : d.start (ix3 b' l' hh) idx ⟨1, by decide⟩ = (idx (ix3 b' l' 1)).toInt := by rw [← hsi 1]; rfl
  have t2 : d.start (ix3 b' l' hh) idx ⟨2, by decide⟩ = (idx (ix3 b' l' 2)).toInt := by rw [← hsi 2]; rfl
  have t3 : d.start (ix3 b' l' hh) idx ⟨3, by decide⟩ = 0 := rfl
  have z0 : SO.size ⟨0, by decide⟩ = 32 := rfl
  have z1 : SO.size ⟨1, by decide⟩ = 33 := rfl
  have z2 : SO.size ⟨2, by decide⟩ = 12 := rfl
  have z3 : SO.size ⟨3, by decide⟩ = 1024 := rfl
  unfold ScatterDims.resultIdx?
  constructor
  · intro h
    split at h
    · next hr =>
      have hf := Option.some.inj h
      have c0 : (d.start (ix3 b' l' hh) idx ⟨0, by decide⟩ + (d.window (ix3 b' l' hh) ⟨0, by decide⟩ : ℕ)).toNat = b.val :=
        congrArg Fin.val (congrFun hf ⟨0, by decide⟩)
      have c1 : (d.start (ix3 b' l' hh) idx ⟨1, by decide⟩ + (d.window (ix3 b' l' hh) ⟨1, by decide⟩ : ℕ)).toNat = r.val :=
        congrArg Fin.val (congrFun hf ⟨1, by decide⟩)
      have c2 : (d.start (ix3 b' l' hh) idx ⟨2, by decide⟩ + (d.window (ix3 b' l' hh) ⟨2, by decide⟩ : ℕ)).toNat = p.val :=
        congrArg Fin.val (congrFun hf ⟨2, by decide⟩)
      have c3 : (d.start (ix3 b' l' hh) idx ⟨3, by decide⟩ + (d.window (ix3 b' l' hh) ⟨3, by decide⟩ : ℕ)).toNat = hh'.val :=
        congrArg Fin.val (congrFun hf ⟨3, by decide⟩)
      have r0 := (hr ⟨0, by decide⟩).1
      have r1 := (hr ⟨1, by decide⟩).1
      have r2 := (hr ⟨2, by decide⟩).1
      rw [t0, w0] at c0 r0
      rw [t1, w1] at c1 r1
      rw [t2, w2] at c2 r2
      rw [t3, w3] at c3
      refine ⟨⟨?_, ?_, ?_⟩, Fin.ext ?_⟩ <;> omega
    · exact absurd h (by simp)
  · rintro ⟨⟨e0, e1, e2⟩, e3⟩
    subst e3
    have hr : ∀ a, 0 ≤ d.start (ix3 b' l' hh) idx a + (d.window (ix3 b' l' hh) a : ℕ) ∧
        d.start (ix3 b' l' hh) idx a + (d.window (ix3 b' l' hh) a : ℕ) < (SO.size a : ℕ) := by
      intro a
      match a with
      | ⟨0, _⟩ => rw [t0, w0, e0, z0]; have := b.isLt; omega
      | ⟨1, _⟩ => rw [t1, w1, e1, z1]; have := r.isLt; omega
      | ⟨2, _⟩ => rw [t2, w2, e2, z2]; have := p.isLt; omega
      | ⟨3, _⟩ => rw [t3, w3, z3]; have := hh.isLt; omega
    rw [dif_pos hr]
    congr 1
    funext a; refine Fin.ext ?_
    match a with
    | ⟨0, _⟩ =>
      show (d.start (ix3 b' l' hh) idx ⟨0, by decide⟩ + (d.window (ix3 b' l' hh) ⟨0, by decide⟩ : ℕ)).toNat = b.val
      rw [t0, w0, e0]; omega
    | ⟨1, _⟩ =>
      show (d.start (ix3 b' l' hh) idx ⟨1, by decide⟩ + (d.window (ix3 b' l' hh) ⟨1, by decide⟩ : ℕ)).toNat = r.val
      rw [t1, w1, e1]; omega
    | ⟨2, _⟩ =>
      show (d.start (ix3 b' l' hh) idx ⟨2, by decide⟩ + (d.window (ix3 b' l' hh) ⟨2, by decide⟩ : ℕ)).toNat = p.val
      rw [t2, w2, e2]; omega
    | ⟨3, _⟩ =>
      show (d.start (ix3 b' l' hh) idx ⟨3, by decide⟩ + (d.window (ix3 b' l' hh) ⟨3, by decide⟩ : ℕ)).toNat = hh.val
      rw [t3, w3]; omega

/-- THE SCATTER OF ROWS READ AT `(b, r, p, h)` WHEN EXACTLY ONE UPDATE ROW `(b0, l0)` TARGETS `(b, r, p)`: the update's
    element `(b0, l0, h)`. -/
theorem scatter_set_hit (d : ScatterDims SO SI SU) (h1 : d.updateWindowDims = [2])
    (h2 : d.insertedWindowDims = [0, 1, 2]) (h3 : d.scatterDimsToOperandDims = [0, 1, 2]) (h4 : d.indexVectorDim = 2)
    (x : SO.Idx → α) (idx : IVec SI 32) (upd : SU.Idx → α) (b : Fin 32) (r : Fin 33) (p : Fin 12) (hh : Fin 1024)
    (b0 : Fin 32) (l0 : Fin 512) (hit : Targets idx b0 l0 b r p)
    (uniq : ∀ b' l', Targets idx b' l' b r p → b' = b0 ∧ l' = l0) :
    Host.scatter d (fun _ u => u) x idx upd (ix4 b r p hh) = upd (ix3 b0 l0 hh) := by
  refine scatter_set_apply_hit d x idx upd (ix4 b r p hh) (ix3 b0 l0 hh)
    ((resultIdx_eq_some_iff d h1 h2 h3 h4 idx b0 l0 hh b r p hh).2 ⟨hit, rfl⟩) ?_
  intro j hj
  rw [eq_ix3 j] at hj ⊢
  obtain ⟨ht, he⟩ := (resultIdx_eq_some_iff d h1 h2 h3 h4 idx (j 0) (j 1) (j 2) b r p hh).1 hj
  obtain ⟨hb, hl⟩ := uniq _ _ ht
  rw [hb, hl, he]
  rfl

/-- THE SCATTER OF ROWS READ AT `(b, r, p, h)` WHEN NO UPDATE ROW TARGETS `(b, r, p)`: the operand's element. -/
theorem scatter_set_miss (d : ScatterDims SO SI SU) (h1 : d.updateWindowDims = [2])
    (h2 : d.insertedWindowDims = [0, 1, 2]) (h3 : d.scatterDimsToOperandDims = [0, 1, 2]) (h4 : d.indexVectorDim = 2)
    (x : SO.Idx → α) (idx : IVec SI 32) (upd : SU.Idx → α) (b : Fin 32) (r : Fin 33) (p : Fin 12) (hh : Fin 1024)
    (miss : ∀ b' l', ¬ Targets idx b' l' b r p) :
    Host.scatter d (fun _ u => u) x idx upd (ix4 b r p hh) = x (ix4 b r p hh) := by
  refine scatter_set_apply_miss d x idx upd (ix4 b r p hh) ?_
  intro j hj
  rw [eq_ix3 j] at hj
  exact miss _ _ ((resultIdx_eq_some_iff d h1 h2 h3 h4 idx (j 0) (j 1) (j 2) b r p hh).1 hj).1

end Rows

end Cert.ScatterRows
-- ==== Proof.KHost.lean ====
/-
  The three operand arrays of the two matrix products, as the host operations before the first region leave them,
  are the functions of the argument arrays stated in HostSpec.lean.

  Uᵀ: the host operations compute, at row a and column b, the position of (b, a) in the packed upper triangle, mask it
  to zero above the diagonal, take the packed vector there, mask the value to zero above the diagonal and
  exponentiate the diagonal; the conversion to bf16 is the identity on ideal values. On or below the diagonal the
  position already lies inside the packed vector, so clipping it (as the specification does) changes nothing; above
  the diagonal the entry is zero whatever the position.
  Wᵀ: a conversion (the identity on ideal values) followed by a transpose.
  The bias: a scatter of the 512 bias elements into a row of zeros at start index 0; update o lands at (0, o) and no
  other update does.
-/
import proofs.«149885_g2000505278659894_pallasbulk_154_2_alg».proof.Proof.Gen.KernelIdeal.Frame
import proofs.«149885_g2000505278659894_pallasbulk_154_2_alg».proof.Proof.HostSpec
import proofs.«149885_g2000505278659894_pallasbulk_154_2_alg».proof.Proof.HostLemmas
import proofs.«149885_g2000505278659894_pallasbulk_154_2_alg».proof.Proof.LibScatterRows
import Idealize.ShloMosaic.Lib.StableHlo.Run
import Idealize.ShloMosaic.Lib.ValueIdx

noncomputable section

namespace Cert.KernelIdeal.HostVal

open Idealize.ShloMosaic Idealize.ShloMosaic.TcCoe Idealize.SL.Sem Idealize.ShloMosaic.StableHlo
open Idealize.ShloMosaic.ValueIdx
open Cert.KernelIdeal Cert.KernelIdeal.Gen Cert.CovSpec

/-- Where update `j` of the bias scatter lands: at `(0, j)`, the start index being 0. -/
theorem bias_resultIdx (j : S512.Idx) :
    scatter_S1x512_S1_S512_0_0_0_0.resultIdx? j (broadcastInDim S1 ![] Facts₀.bcast_S_S1 (constantI S_ 32 0#32))
      = some (ix2 (0 : Fin 1) (j 0)) := by
  have hs0 : scatter_S1x512_S1_S512_0_0_0_0.start j (broadcastInDim S1 ![] Facts₀.bcast_S_S1 (constantI S_ 32 0#32)) ⟨0, by decide⟩ = 0 := rfl
  have hs1 : scatter_S1x512_S1_S512_0_0_0_0.start j (broadcastInDim S1 ![] Facts₀.bcast_S_S1 (constantI S_ 32 0#32)) ⟨1, by decide⟩ = 0 := rfl
  have w0 : scatter_S1x512_S1_S512_0_0_0_0.window j ⟨0, by decide⟩ = 0 := rfl
  have w1 : scatter_S1x512_S1_S512_0_0_0_0.window j ⟨1, by decide⟩ = (j 0).val := rfl
  have hr : ∀ a, 0 ≤ scatter_S1x512_S1_S512_0_0_0_0.start j (broadcastInDim S1 ![] Facts₀.bcast_S_S1 (constantI S_ 32 0#32)) a
        + (scatter_S1x512_S1_S512_0_0_0_0.window j a : ℕ) ∧
      scatter_S1x512_S1_S512_0_0_0_0.start j (broadcastInDim S1 ![] Facts₀.bcast_S_S1 (constantI S_ 32 0#32)) a
        + (scatter_S1x512_S1_S512_0_0_0_0.window j a : ℕ) < (S1x512.size a : ℕ) := by
    intro a
    match a with
    | ⟨0, _⟩ =>
      rw [hs0, w0]
      have z0 : S1x512.size ⟨0, by decide⟩ = 1 := rfl
      rw [z0]
      omega
    | ⟨1, _⟩ =>
      rw [hs1, w1]
      have := (j 0).isLt
      have z1 : S1x512.size ⟨1, by decide⟩ = 512 := rfl
      rw [z1]
      have : (j 0).val < 512 := this
      omega
  unfold ScatterDims.resultIdx?
  rw [dif_pos hr]
  congr 1
  funext a; refine Fin.ext ?_
  match a with
  | ⟨0, _⟩ =>
    simp only [hs0, w0]
    rfl
  | ⟨1, _⟩ =>
    simp only [hs1, w1]
    show (0 + ((j 0).val : ℤ)).toNat = (j 0).val
    omega

variable (m : (ℓ : Loc nD τ sig) → Buf (Elt Ideal) ℓ) (ρ : Dev nD → PrngReg) (c : Dev nD)

set_option maxHeartbeats 2000000 in
theorem ut_eq : (W10 (F := Ideal) m ρ c (Proc.devRef .tc main_v18) : Sq.Idx → EReal)
    = utArr (m ((c : Thread nD τ).loc main_arg2)) := by
  dsimp only [W10, W9, W8, W7, W6, W5, W4, W3, W2, W1]
  after_results_simp
  simp only [StableHlo.TRef.toBuf, StableHlo.TRef.ofBuf, cast_eq]
  rw [show gather_S131328_S512x512x1_S512x512_n_0_n_n_0_2_1
      = takeDims 131328 512 512 Facts₀.gather_S131328_S512x512x1_S512x512_n_0_n_n_0_2_1_wf from rfl]
  rw [take_eq]
  funext i
  obtain ⟨a, b, rfl⟩ : ∃ (a b : Fin 512), i = ix2 a b := ⟨i 0, i 1, eq_ix2 i⟩
  refine Eq.trans ?_ (entry_mask_eq_clip (m ((c : Thread nD τ).loc main_arg2))
    (IntOp.cmpi .eq (BitVec.ofNat 32 a.val) (BitVec.ofNat 32 b.val)) a b)
  rfl

theorem wt_eq : (W10 (F := Ideal) m ρ c (Proc.devRef .tc main_v20) : Sq.Idx → EReal)
    = wtArr (m ((c : Thread nD τ).loc main_arg1)) := by
  dsimp only [W10, W9, W8, W7, W6, W5, W4, W3, W2, W1]
  after_results_simp
  funext i
  obtain ⟨a, b, rfl⟩ : ∃ (a b : Fin 512), i = ix2 a b := ⟨i 0, i 1, eq_ix2 i⟩
  refine (transpose_apply _ _ _ (ix2 a b) (ix2 b a) fun b' => ?_).trans rfl
  match b' with
  | ⟨0, _⟩ => rfl
  | ⟨1, _⟩ => rfl

theorem bias_eq : (W10 (F := Ideal) m ρ c (Proc.devRef .tc main_v23) : Row1.Idx → EReal)
    = biasArr (m ((c : Thread nD τ).loc main_arg3)) := by
  dsimp only [W10, W9, W8, W7, W6, W5, W4, W3, W2, W1]
  after_results_simp
  funext i
  obtain ⟨z, o, rfl⟩ : ∃ (z : Fin 1) (o : Fin 512), i = ix2 z o := ⟨i 0, i 1, eq_ix2 i⟩
  obtain rfl : z = 0 := Subsingleton.elim _ _
  refine (Cert.ScatterRows.scatter_set_apply_hit _ _ _ _ (ix2 (0 : Fin 1) o) (ix1 o) (bias_resultIdx (ix1 o)) ?_).trans rfl
  intro j hj
  rw [bias_resultIdx] at hj
  have h1 := congrFun (Option.some.inj hj) ⟨1, by decide⟩
  have h2 : j 0 = o := h1
  rw [eq_ix1 j, h2]
  rfl

end Cert.KernelIdeal.HostVal

end
-- ==== Proof.KVal.lean ====
/-
  The result array of the whole program as ONE function of the argument arrays. The last boundary's contents at the
  result are read back through the program: the closing reshape of the second region's array; that array is the affine
  map `linArr` of the flattened input, of the first region's array — the product `mmArr` of the two operand arrays the
  host operations build — and of the bias row.
-/
import proofs.«149885_g2000505278659894_pallasbulk_154_2_alg».proof.Proof.Gen.KernelIdeal.Frame
import proofs.«149885_g2000505278659894_pallasbulk_154_2_alg».proof.Proof.KFold
import proofs.«149885_g2000505278659894_pallasbulk_154_2_alg».proof.Proof.KLin
import proofs.«149885_g2000505278659894_pallasbulk_154_2_alg».proof.Proof.KHost
import Idealize.ShloMosaic.Lib.StableHlo.Run

set_option maxRecDepth 16384

noncomputable section

namespace Cert.KernelIdeal.ResVal

open Idealize.ShloMosaic Idealize.ShloMosaic.TcCoe Idealize.SL.Sem Idealize.ShloMosaic.StableHlo Idealize.ShloMosaic.ValueIdx
open Cert.KernelIdeal Cert.KernelIdeal.Gen Cert.CovSpec

variable (m : (ℓ : Loc nD τ sig) → Buf (Elt Ideal) ℓ) (ρ : Dev nD → PrngReg) (c : Dev nD)

/-- The flattened input as the second region finds it. -/
theorem x_eq : (W12 (F := Ideal) m ρ c (Proc.devRef .tc main_v25) : Rows.Idx → EReal)
    = shapeCast S32768x512 (m ((c : Thread nD τ).loc main_arg0)) shapeCasts_S64x512x512_S32768x512 := by
  have e0 : W11 (F := Ideal) m ρ c (Proc.devRef .tc main_arg0) = m ((c : Thread nD τ).loc main_arg0) := by
    rw [W11_of_ne m ρ c main_arg0 (by decide)]
    dsimp only [W10, W9, W8, W7, W6, W5, W4, W3, W2, W1]
    after_results_simp
  dsimp only [W12]
  after_results
  rw [e0]
  rfl

/-- The first region's array as the second region finds it: the product of the two operand arrays. -/
theorem cw_eq : (W12 (F := Ideal) m ρ c (Proc.devRef .tc main_v24) : Sq.Idx → EReal)
    = mmArr (utArr (m ((c : Thread nD τ).loc main_arg2))) (wtArr (m ((c : Thread nD τ).loc main_arg1))) := by
  have e1 : W12 (F := Ideal) m ρ c (Proc.devRef .tc main_v24) = W11 (F := Ideal) m ρ c (Proc.devRef .tc main_v24) := by
    dsimp only [W12]
    after_results
  rw [e1]
  have e2 := W11_arr (F := Ideal) m ρ c 2
  have e3 := FoldVal.final (V10 (F := Ideal) m ρ) c
  have e4 := HostVal.ut_eq m ρ c
  have e5 := HostVal.wt_eq m ρ c
  exact (e2.trans e3).trans (by rw [show V10 (F := Ideal) m ρ c main_v18 = W10 (F := Ideal) m ρ c (Proc.devRef .tc main_v18) from rfl,
    show V10 (F := Ideal) m ρ c main_v20 = W10 (F := Ideal) m ρ c (Proc.devRef .tc main_v20) from rfl, e4, e5])

/-- The bias row as the second region finds it. -/
theorem b_eq : (W12 (F := Ideal) m ρ c (Proc.devRef .tc main_v23) : Row1.Idx → EReal)
    = biasArr (m ((c : Thread nD τ).loc main_arg3)) := by
  have e1 : W12 (F := Ideal) m ρ c (Proc.devRef .tc main_v23) = W11 (F := Ideal) m ρ c (Proc.devRef .tc main_v23) := by
    dsimp only [W12]
    after_results
  rw [e1, W11_of_ne m ρ c main_v23 (by decide)]
  exact HostVal.bias_eq m ρ c

/-- The result at the last boundary is `resArr` of the four argument arrays. -/
theorem result_eq : (W14 (F := Ideal) m ρ c (Proc.devRef .tc main_v27) : Batch.Idx → EReal)
    = resArr (m ((c : Thread nD τ).loc main_arg0)) (m ((c : Thread nD τ).loc main_arg1))
        (m ((c : Thread nD τ).loc main_arg2)) (m ((c : Thread nD τ).loc main_arg3))
        shapeCasts_S64x512x512_S32768x512 shapeCasts_S32768x512_S64x512x512 := by
  have e1 : (W14 (F := Ideal) m ρ c (Proc.devRef .tc main_v27) : Batch.Idx → EReal)
      = shapeCast S64x512x512 (W13 (F := Ideal) m ρ c (Proc.devRef .tc main_v26) : Rows.Idx → EReal) shapeCasts_S32768x512_S64x512x512 := by
    dsimp only [W14]
    after_results
    rfl
  have e2 := W13_arr (F := Ideal) m ρ c 3
  have e3 := LinVal.final (V12 (F := Ideal) m ρ) c
  rw [e1]
  unfold resArr
  refine congrArg (fun f => shapeCast S64x512x512 f shapeCasts_S32768x512_S64x512x512) ?_
  refine (e2.trans e3).trans ?_
  rw [show V12 (F := Ideal) m ρ c main_v25 = W12 (F := Ideal) m ρ c (Proc.devRef .tc main_v25) from rfl,
    show V12 (F := Ideal) m ρ c main_v24 = W12 (F := Ideal) m ρ c (Proc.devRef .tc main_v24) from rfl,
    show V12 (F := Ideal) m ρ c main_v23 = W12 (F := Ideal) m ρ c (Proc.devRef .tc main_v23) from rfl,
    x_eq m ρ c, cw_eq m ρ c, b_eq m ρ c]

end Cert.KernelIdeal.ResVal

end
-- ==== Proof.RFold.lean ====
/-
  The first region of the reference's program: the product Uᵀ · Wᵀ at its one grid point. The body multiplies the
  whole left array by the whole right array; the one block is the 512 × 512 result, so the array the region leaves is
  the whole product `mmArr`.
-/
import proofs.«149885_g2000505278659894_pallasbulk_154_2_alg».proof.Proof.Gen.ReferenceIdeal.Frame
import proofs.«149885_g2000505278659894_pallasbulk_154_2_alg».proof.Proof.MatSpec
import proofs.«149885_g2000505278659894_pallasbulk_154_2_alg».proof.Proof.LibPlainMatmul
import Idealize.ShloMosaic.Lib.Pipeline.Value

set_option maxRecDepth 16384

noncomputable section

namespace Cert.ReferenceIdeal.FoldVal

open Idealize.ShloMosaic Idealize.ShloMosaic.TcCoe Idealize.SL.Sem Idealize.ShloMosaic.ValueIdx
open Idealize.ShloMosaic.Pipeline (Dat Cfg Window)
open Cert.ReferenceIdeal Cert.ReferenceIdeal.Gen Cert.CovSpec

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an index: one column block of the product. -/
theorem pay_apply (x0 : FVec Ideal S512x512 .f32) (x1 : FVec Ideal S512x512 .f32) (p : Fin 512) (q : Fin 512) :
    k0_pay1 (F := Ideal) x0 x1 (ix2 p q) = ∑ k : Fin 512, x0 (ix2 p k) * x1 (ix2 k q) := by
  unfold k0_pay1
  show matmul dot_S512x512_S512x512_S512x512_1_0_0_1_n_n none (shapeCast S512x512 x0 shapeCasts_S512x512_S512x512)
    (shapeCast S512x512 x1 shapeCasts_S512x512_S512x512) (constant S512x512 .f32 0x00000000#32) (ix2 p q) = _
  rw [shapeCast_self, shapeCast_self]
  exact PlainMatmul.matmul_zero_apply dot_S512x512_S512x512_S512x512_1_0_0_1_n_n rfl rfl rfl rfl rfl rfl rfl rfl none x0 x1 p q

/-- The block computed from blocks of two arrays is the product of the arrays at the block's place. -/
theorem blk_eq (A B : Sq.Idx → EReal) (x0 : FVec Ideal S512x512 .f32) (x1 : FVec Ideal S512x512 .f32)
    (j : S512x512.Idx) (e : Sq.Idx)
    (h0 : ∀ k : Fin 512, x0 (ix2 (j 0) k) = A (ix2 (e 0) k))
    (h1 : ∀ k : Fin 512, x1 (ix2 k (j 1)) = B (ix2 k (e 1))) :
    k0_pay1 (F := Ideal) x0 x1 j = mmArr A B e := by
  obtain ⟨p, q, rfl⟩ : ∃ (p : Fin 512) (q : Fin 512), j = ix2 p q := ⟨j 0, j 1, eq_ix2 j⟩
  rw [pay_apply]
  unfold mmArr
  exact Finset.sum_congr rfl fun k _ => by rw [h0 k, h1 k]

/-- The printed index maps over the one grid point. -/
theorem idx_facts : ∀ t : Fin cfg0.N, win0_0.index t (0 : Fin 2) = 0 ∧ win0_0.index t (1 : Fin 2) = 0
    ∧ win0_1.index t (0 : Fin 2) = 0 ∧ win0_1.index t (1 : Fin 2) = win0_2.index t (1 : Fin 2)
    ∧ win0_2.index t (0 : Fin 2) = 0 ∧ win0_2.index t (1 : Fin 2) ≤ 0 :=
  (by decide +kernel : ∀ t : Fin grid0.N, _)

/-- The one block is the one point's. -/
theorem idx_onto : ∀ (q1 : Fin 1), ∃ t : Fin cfg0.N, win0_2.index t = ![0, q1.val] :=
  (by decide +kernel : ∀ (q1 : Fin 1), ∃ t : Fin grid0.N, win0_2.index t = ![0, q1.val])

/-- What point `t` writes back is block `t` of the product of the two arrays as the region finds them. -/
theorem flushed_eq (c : Dev nD) (t : Fin cfg0.N) :
    (dat0 V c).flushed 2 t = ((cfg0.win 2).blk t).view.read (Elt Ideal) (mmArr (V c main_v18) (V c main_v19)) := by
  show (cfg0.win 2).cut (grid0.coords t) ((dat0 V c).after 2 t) = _
  rw [after0_2]
  unfold out0_2
  rw [View.canon_unit_zero hz]
  simp only [View.ld_unit_zero (S := S512x512) hz, View.ld_unit_zero (S := S512x512) hz]
  obtain ⟨e0, e1, e2, e3, e4, e5⟩ := idx_facts t
  funext j
  refine blk_eq (V c main_v18) (V c main_v19) (iblk0 V c 0 t) (iblk0 V c 1 t) j (((cfg0.win 2).blk t).view.emb j) ?_ ?_
  · intro k
    show V c main_v18 (((cfg0.win 0).blk t).view.emb (ix2 (j 0) k)) = V c main_v18 (ix2 ((((cfg0.win 2).blk t).view.emb j) 0) k)
    refine congrArg (V c main_v18) ?_
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 512 + 1 * k.val = k.val; omega
  · intro k
    show V c main_v19 (((cfg0.win 1).blk t).view.emb (ix2 k (j 1))) = V c main_v19 (ix2 k ((((cfg0.win 2).blk t).view.emb j) 1))
    refine congrArg (V c main_v19) ?_
    funext a; apply Fin.ext
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega

/-- An index of the array is in point `t`'s block iff each coordinate is in the block's range on its axis. -/
theorem mem_blk (t : Fin cfg0.N) (i : S512x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v21).slice (win0_2.rect t)).set ↔ _
  rw [View.set_slice_whole, Rect.mem_set_unit]
  exact Iff.rfl

/-- The one block covers the array. -/
theorem cover (i : S512x512.Idx) : ∃ t : Fin cfg0.N, (cfg0.win 2).flush t = true ∧ i ∈ ((cfg0.win 2).blk t).view.set := by
  have hi0 : (i 0).val < 512 := (i 0).isLt
  have hi1 : (i 1).val < 512 := (i 1).isLt
  obtain ⟨t, ht⟩ := idx_onto ⟨(i 1).val / 512, by omega⟩
  have q0 : win0_2.index t (0 : Fin 2) = 0 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The array after the region: the whole product. -/
theorem final (c : Dev nD) : (dat0 V c).arrAt 2 cfg0.N = mmArr (V c main_v18) (V c main_v19) :=
  (dat0 V c).arrAt_eq_of_cover 2 (mmArr (V c main_v18) (V c main_v19)) (fun t _ => flushed_eq V c t) (cover)

end Cert.ReferenceIdeal.FoldVal

end
-- ==== Proof.RLin.lean ====
/-
  The second region: y = x · C + b over row blocks of 1024 rows. At each of the 32 grid points the body
  multiplies one block of 1024 rows of x by the whole 512 × 512 array C and adds the one-row matrix b to every row;
  the row blocks tile the 32768 × 512 result, so the array the region leaves is the whole affine map `linArr`.
-/
import proofs.«149885_g2000505278659894_pallasbulk_154_2_alg».proof.Proof.Gen.ReferenceIdeal.Frame
import proofs.«149885_g2000505278659894_pallasbulk_154_2_alg».proof.Proof.MatSpec
import proofs.«149885_g2000505278659894_pallasbulk_154_2_alg».proof.Proof.LibPlainMatmul
import Idealize.ShloMosaic.Lib.Pipeline.Value
import Idealize.ShloMosaic.Lib.ValueLayout

set_option maxRecDepth 16384

noncomputable section

namespace Cert.ReferenceIdeal.LinVal

open Idealize.ShloMosaic Idealize.ShloMosaic.TcCoe Idealize.SL.Sem Idealize.ShloMosaic.ValueIdx
open Idealize.ShloMosaic.Pipeline (Dat Cfg Window)
open Cert.ReferenceIdeal Cert.ReferenceIdeal.Gen Cert.CovSpec

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an index: a row of the block times a column of C, plus the row matrix's entry. -/
theorem pay_apply (x0 : FVec Ideal S1024x512 .f32) (x1 : FVec Ideal S512x512 .f32) (x2 : FVec Ideal S1x512 .f32)
    (p : Fin 1024) (q : Fin 512) :
    k1_pay1 (F := Ideal) x0 x1 x2 (ix2 p q) = (∑ k : Fin 512, x0 (ix2 p k) * x1 (ix2 k q)) + x2 (ix2 (0 : Fin 1) q) := by
  unfold k1_pay1
  show matmul dot_S1024x512_S512x512_S1024x512_1_0_0_1_n_n none (shapeCast S1024x512 x0 shapeCasts_S1024x512_S1024x512)
    (shapeCast S512x512 x1 shapeCasts_S512x512_S512x512) (constant S1024x512 .f32 0x00000000#32) (ix2 p q)
      + broadcastTo S1024x512 (shapeCast S1x512 x2 shapeCasts_S1x512_S1x512) broadcasts_S1x512_S1024x512 (ix2 p q) = _
  rw [shapeCast_self, shapeCast_self, shapeCast_self, broadcastTo_1b_ab_apply]
  exact congrArg (· + x2 (ix2 (0 : Fin 1) q))
    (PlainMatmul.matmul_zero_apply dot_S1024x512_S512x512_S1024x512_1_0_0_1_n_n rfl rfl rfl rfl rfl rfl rfl rfl none x0 x1 p q)

/-- The block computed from blocks of the three arrays is the affine map of the arrays at the block's place. -/
theorem blk_eq (X : Rows.Idx → EReal) (C : Sq.Idx → EReal) (b : Row1.Idx → EReal)
    (x0 : FVec Ideal S1024x512 .f32) (x1 : FVec Ideal S512x512 .f32) (x2 : FVec Ideal S1x512 .f32)
    (j : S1024x512.Idx) (e : Rows.Idx)
    (h0 : ∀ k : Fin 512, x0 (ix2 (j 0) k) = X (ix2 (e 0) k))
    (h1 : ∀ k : Fin 512, x1 (ix2 k (j 1)) = C (ix2 k (e 1)))
    (h2 : x2 (ix2 (0 : Fin 1) (j 1)) = b (ix2 (0 : Fin 1) (e 1))) :
    k1_pay1 (F := Ideal) x0 x1 x2 j = linArr X C b e := by
  obtain ⟨p, q, rfl⟩ : ∃ (p : Fin 1024) (q : Fin 512), j = ix2 p q := ⟨j 0, j 1, eq_ix2 j⟩
  rw [pay_apply]
  unfold linArr
  rw [h2]
  exact congrArg (· + b (ix2 (0 : Fin 1) (e 1))) (Finset.sum_congr rfl fun k _ => by rw [h0 k, h1 k])

/-- The printed index maps over the grid. -/
theorem idx_facts : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 31 ∧ win1_3.index t (1 : Fin 2) = 0 :=
  (by decide +kernel : ∀ t : Fin grid1.N, _)

/-- Every row block is some point's. -/
theorem idx_onto : ∀ (q0 : Fin 32), ∃ t : Fin cfg1.N, win1_3.index t = ![q0.val, 0] :=
  (by decide +kernel : ∀ (q0 : Fin 32), ∃ t : Fin grid1.N, win1_3.index t = ![q0.val, 0])

/-- What point `t` writes back is block `t` of the affine map of the three arrays as the region finds them. -/
theorem flushed_eq (c : Dev nD) (t : Fin cfg1.N) :
    (dat1 V c).flushed 3 t = ((cfg1.win 3).blk t).view.read (Elt Ideal) (linArr (V c main_v22) (V c main_v21) (V c main_v20)) := by
  show (cfg1.win 3).cut (grid1.coords t) ((dat1 V c).after 3 t) = _
  rw [after1_3]
  unfold out1_3
  rw [View.canon_unit_zero hz]
  simp only [View.ld_unit_zero (S := S1024x512) hz, View.ld_unit_zero (S := S512x512) hz, View.ld_unit_zero (S := S1x512) hz]
  obtain ⟨e0, e1, e2, e3, e4, e5, e6, e7⟩ := idx_facts t
  funext j
  refine blk_eq (V c main_v22) (V c main_v21) (V c main_v20) (iblk1 V c 0 t) (iblk1 V c 1 t) (iblk1 V c 2 t) j
    (((cfg1.win 3).blk t).view.emb j) ?_ ?_ ?_
  · intro k
    show V c main_v22 (((cfg1.win 0).blk t).view.emb (ix2 (j 0) k)) = V c main_v22 (ix2 ((((cfg1.win 3).blk t).view.emb j) 0) k)
    refine congrArg (V c main_v22) ?_
    funext a; apply Fin.ext
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 512 + 1 * k.val = k.val; omega
  · intro k
    show V c main_v21 (((cfg1.win 1).blk t).view.emb (ix2 k (j 1))) = V c main_v21 (ix2 k ((((cfg1.win 3).blk t).view.emb j) 1))
    refine congrArg (V c main_v21) ?_
    funext a; apply Fin.ext
    match a with
    | ⟨0, _⟩ => show win1_1.index t (0 : Fin 2) * 512 + 1 * k.val = k.val; omega
    | ⟨1, _⟩ => show win1_1.index t (1 : Fin 2) * 512 + 1 * (j 1).val = win1_3.index t (1 : Fin 2) * 512 + 1 * (j 1).val; omega
  · show V c main_v20 (((cfg1.win 2).blk t).view.emb (ix2 (0 : Fin 1) (j 1))) = V c main_v20 (ix2 (0 : Fin 1) ((((cfg1.win 3).blk t).view.emb j) 1))
    refine congrArg (V c main_v20) ?_
    funext a; apply Fin.ext
    match a with
    | ⟨0, _⟩ => show win1_2.index t (0 : Fin 2) * 1 + 1 * 0 = 0; omega
    | ⟨1, _⟩ => show win1_2.index t (1 : Fin 2) * 512 + 1 * (j 1).val = win1_3.index t (1 : Fin 2) * 512 + 1 * (j 1).val; omega

/-- An index of the array is in point `t`'s block iff each coordinate is in the block's range on its axis. -/
theorem mem_blk (t : Fin cfg1.N) (i : S32768x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v23).slice (win1_3.rect t)).set ↔ _
  rw [View.set_slice_whole, Rect.mem_set_unit]
  exact Iff.rfl

/-- The row blocks cover the array. -/
theorem cover (i : S32768x512.Idx) : ∃ t : Fin cfg1.N, (cfg1.win 3).flush t = true ∧ i ∈ ((cfg1.win 3).blk t).view.set := by
  have hi0 : (i 0).val < 32768 := (i 0).isLt
  have hi1 : (i 1).val < 512 := (i 1).isLt
  obtain ⟨t, ht⟩ := idx_onto ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- The array after the region: the whole affine map. -/
theorem final (c : Dev nD) : (dat1 V c).arrAt 3 cfg1.N = linArr (V c main_v22) (V c main_v21) (V c main_v20) :=
  (dat1 V c).arrAt_eq_of_cover 3 (linArr (V c main_v22) (V c main_v21) (V c main_v20)) (fun t _ => flushed_eq V c t) (cover)

end Cert.ReferenceIdeal.LinVal

end
-- ==== Proof.RHost.lean ====
/-
  The three operand arrays of the two matrix products, as the host operations before the first region leave them,
  are the functions of the argument arrays stated in HostSpec.lean.

  Uᵀ: the host operations build U — at row r and column c, the position of (r, c) in the packed upper triangle clipped
  into the packed vector, the packed vector taken there, masked to zero below the diagonal, the diagonal
  exponentiated — and transpose it, so that entry (a, b) of the result is U's entry (b, a): the specification's entry.
  Wᵀ: a transpose.
  The bias: a reshape of the 512 bias elements to one row; element (0, o) has the row-major position o.
-/
import proofs.«149885_g2000505278659894_pallasbulk_154_2_alg».proof.Proof.Gen.ReferenceIdeal.Frame
import proofs.«149885_g2000505278659894_pallasbulk_154_2_alg».proof.Proof.HostSpec
import proofs.«149885_g2000505278659894_pallasbulk_154_2_alg».proof.Proof.HostLemmas
import Idealize.ShloMosaic.Lib.StableHlo.Run
import Idealize.ShloMosaic.Lib.ValueIdx

noncomputable section

namespace Cert.ReferenceIdeal.HostVal

open Idealize.ShloMosaic Idealize.ShloMosaic.TcCoe Idealize.SL.Sem Idealize.ShloMosaic.StableHlo
open Idealize.ShloMosaic.ValueIdx
open Cert.ReferenceIdeal Cert.ReferenceIdeal.Gen Cert.CovSpec

variable (m : (ℓ : Loc nD τ sig) → Buf (Elt Ideal) ℓ) (ρ : Dev nD → PrngReg) (c : Dev nD)

set_option maxHeartbeats 2000000 in
theorem ut_eq : (W10 (F := Ideal) m ρ c (Proc.devRef .tc main_v18) : Sq.Idx → EReal)
    = utArr (m ((c : Thread nD τ).loc main_arg2)) := by
  dsimp only [W10, W9, W8, W7, W6, W5, W4, W3, W2, W1]
  after_results_simp
  simp only [StableHlo.TRef.toBuf, StableHlo.TRef.ofBuf, cast_eq]
  rw [show gather_S131328_S512x512x1_S512x512_n_0_n_n_0_2_1
      = takeDims 131328 512 512 Facts₀.gather_S131328_S512x512x1_S512x512_n_0_n_n_0_2_1_wf from rfl]
  rw [take_eq]
  funext i
  obtain ⟨a, b, rfl⟩ : ∃ (a b : Fin 512), i = ix2 a b := ⟨i 0, i 1, eq_ix2 i⟩
  refine (transpose_apply _ _ _ (ix2 a b) (ix2 b a) fun b' => ?_).trans rfl
  match b' with
  | ⟨0, _⟩ => rfl
  | ⟨1, _⟩ => rfl

theorem wt_eq : (W10 (F := Ideal) m ρ c (Proc.devRef .tc main_v19) : Sq.Idx → EReal)
    = wtArr (m ((c : Thread nD τ).loc main_arg1)) := by
  dsimp only [W10, W9, W8, W7, W6, W5, W4, W3, W2, W1]
  after_results_simp
  funext i
  obtain ⟨a, b, rfl⟩ : ∃ (a b : Fin 512), i = ix2 a b := ⟨i 0, i 1, eq_ix2 i⟩
  refine (transpose_apply _ _ _ (ix2 a b) (ix2 b a) fun b' => ?_).trans rfl
  match b' with
  | ⟨0, _⟩ => rfl
  | ⟨1, _⟩ => rfl

theorem bias_eq : (W10 (F := Ideal) m ρ c (Proc.devRef .tc main_v20) : Row1.Idx → EReal)
    = biasArr (m ((c : Thread nD τ).loc main_arg3)) := by
  dsimp only [W10, W9, W8, W7, W6, W5, W4, W3, W2, W1]
  after_results_simp
  funext i
  obtain ⟨z, o, rfl⟩ : ∃ (z : Fin 1) (o : Fin 512), i = ix2 z o := ⟨i 0, i 1, eq_ix2 i⟩
  refine (shapeCast_apply _ _ (ix2 z o) (ix1 o) ?_).trans rfl
  rw [Shape.rowMajor_val_one, Shape.rowMajor_val_two]
  have hz : z.val = 0 := by omega
  show o.val = z.val * 512 + o.val
  rw [hz]; omega

end Cert.ReferenceIdeal.HostVal

end
-- ==== Proof.RVal.lean ====
/-
  The result array of the whole program as ONE function of the argument arrays. The last boundary's contents at the
  result are read back through the program: the closing reshape of the second region's array; that array is the affine
  map `linArr` of the flattened input, of the first region's array — the product `mmArr` of the two operand arrays the
  host operations build — and of the bias row.
-/
import proofs.«149885_g2000505278659894_pallasbulk_154_2_alg».proof.Proof.Gen.ReferenceIdeal.Frame
import proofs.«149885_g2000505278659894_pallasbulk_154_2_alg».proof.Proof.RFold
import proofs.«149885_g2000505278659894_pallasbulk_154_2_alg».proof.Proof.RLin
import proofs.«149885_g2000505278659894_pallasbulk_154_2_alg».proof.Proof.RHost
import Idealize.ShloMosaic.Lib.StableHlo.Run

set_option maxRecDepth 16384

noncomputable section

namespace Cert.ReferenceIdeal.ResVal

open Idealize.ShloMosaic Idealize.ShloMosaic.TcCoe Idealize.SL.Sem Idealize.ShloMosaic.StableHlo Idealize.ShloMosaic.ValueIdx
open Cert.ReferenceIdeal Cert.ReferenceIdeal.Gen Cert.CovSpec

variable (m : (ℓ : Loc nD τ sig) → Buf (Elt Ideal) ℓ) (ρ : Dev nD → PrngReg) (c : Dev nD)

/-- The flattened input as the second region finds it. -/
theorem x_eq : (W12 (F := Ideal) m ρ c (Proc.devRef .tc main_v22) : Rows.Idx → EReal)
    = shapeCast S32768x512 (m ((c : Thread nD τ).loc main_arg0)) shapeCasts_S64x512x512_S32768x512 := by
  have e0 : W11 (F := Ideal) m ρ c (Proc.devRef .tc main_arg0) = m ((c : Thread nD τ).loc main_arg0) := by
    rw [W11_of_ne m ρ c main_arg0 (by decide)]
    dsimp only [W10, W9, W8, W7, W6, W5, W4, W3, W2, W1]
    after_results_simp
  dsimp only [W12]
  after_results
  rw [e0]
  rfl

/-- The first region's array as the second region finds it: the product of the two operand arrays. -/
theorem cw_eq : (W12 (F := Ideal) m ρ c (Proc.devRef .tc main_v21) : Sq.Idx → EReal)
    = mmArr (utArr (m ((c : Thread nD τ).loc main_arg2))) (wtArr (m ((c : Thread nD τ).loc main_arg1))) := by
  have e1 : W12 (F := Ideal) m ρ c (Proc.devRef .tc main_v21) = W11 (F := Ideal) m ρ c (Proc.devRef .tc main_v21) := by
    dsimp only [W12]
    after_results
  rw [e1]
  have e2 := W11_arr (F := Ideal) m ρ c 2
  have e3 := FoldVal.final (V10 (F := Ideal) m ρ) c
  have e4 := HostVal.ut_eq m ρ c
  have e5 := HostVal.wt_eq m ρ c
  exact (e2.trans e3).trans (by rw [show V10 (F := Ideal) m ρ c main_v18 = W10 (F := Ideal) m ρ c (Proc.devRef .tc main_v18) from rfl,
    show V10 (F := Ideal) m ρ c main_v19 = W10 (F := Ideal) m ρ c (Proc.devRef .tc main_v19) from rfl, e4, e5])

/-- The bias row as the second region finds it. -/
theorem b_eq : (W12 (F := Ideal) m ρ c (Proc.devRef .tc main_v20) : Row1.Idx → EReal)
    = biasArr (m ((c : Thread nD τ).loc main_arg3)) := by
  have e1 : W12 (F := Ideal) m ρ c (Proc.devRef .tc main_v20) = W11 (F := Ideal) m ρ c (Proc.devRef .tc main_v20) := by
    dsimp only [W12]
    after_results
  rw [e1, W11_of_ne m ρ c main_v20 (by decide)]
  exact HostVal.bias_eq m ρ c

/-- The result at the last boundary is `resArr` of the four argument arrays. -/
theorem result_eq : (W14 (F := Ideal) m ρ c (Proc.devRef .tc main_v24) : Batch.Idx → EReal)
    = resArr (m ((c : Thread nD τ).loc main_arg0)) (m ((c : Thread nD τ).loc main_arg1))
        (m ((c : Thread nD τ).loc main_arg2)) (m ((c : Thread nD τ).loc main_arg3))
        shapeCasts_S64x512x512_S32768x512 shapeCasts_S32768x512_S64x512x512 := by
  have e1 : (W14 (F := Ideal) m ρ c (Proc.devRef .tc main_v24) : Batch.Idx → EReal)
      = shapeCast S64x512x512 (W13 (F := Ideal) m ρ c (Proc.devRef .tc main_v23) : Rows.Idx → EReal) shapeCasts_S32768x512_S64x512x512 := by
    dsimp only [W14]
    after_results
    rfl
  have e2 := W13_arr (F := Ideal) m ρ c 3
  have e3 := LinVal.final (V12 (F := Ideal) m ρ) c
  rw [e1]
  unfold resArr
  refine congrArg (fun f => shapeCast S64x512x512 f shapeCasts_S32768x512_S64x512x512) ?_
  refine (e2.trans e3).trans ?_
  rw [show V12 (F := Ideal) m ρ c main_v22 = W12 (F := Ideal) m ρ c (Proc.devRef .tc main_v22) from rfl,
    show V12 (F := Ideal) m ρ c main_v21 = W12 (F := Ideal) m ρ c (Proc.devRef .tc main_v21) from rfl,
    show V12 (F := Ideal) m ρ c main_v20 = W12 (F := Ideal) m ρ c (Proc.devRef .tc main_v20) from rfl,
    x_eq m ρ c, cw_eq m ρ c, b_eq m ρ c]

end Cert.ReferenceIdeal.ResVal

end
-- ==== Proof.lean ====
/-
  The kernel computes y = x · (Uᵀ · Wᵀ) + b, with U the upper-triangular factor unpacked from a flat vector (its
  diagonal exponentiated), in two regions: the product Uᵀ · Wᵀ in two column blocks, then the rows of x, in blocks of
  2048, times that product plus the bias row. The reference computes the same expression with the same association —
  the product at one grid point, the rows in blocks of 1024 — from a U built row by row and transposed, its packed
  positions clipped into the vector's range where the kernel's are masked to 0 above the diagonal.

  Over the extended reals a change of float format is the identity, a matrix product is the textbook sum whatever the
  tiling, and on and below the diagonal the packed position 512·b − ⌊b(b−1)/2⌋ + (a − b) already lies in the vector's
  range, so clipping it changes nothing, while above the diagonal the entry is 0 whatever position was read. Hence both
  programs leave ONE function `resArr` of the four argument arrays in their result (Proof/KVal.lean, Proof/RVal.lean,
  over the runs of Proof/KRun.lean, Proof/RRun.lean), and the arguments agree. No law that needs finiteness is used: the
  two sides are the same sums of the same products in the same order. The three frames are the generated ones, and the
  idealization rewrote nothing.
-/
import proofs.«149885_g2000505278659894_pallasbulk_154_2_alg».proof.Defs
import proofs.«149885_g2000505278659894_pallasbulk_154_2_alg».proof.Proof.Gen.Kernel
import proofs.«149885_g2000505278659894_pallasbulk_154_2_alg».proof.Proof.Gen.Kernel.Frame
import proofs.«149885_g2000505278659894_pallasbulk_154_2_alg».proof.Proof.Gen.KernelIdeal
import proofs.«149885_g2000505278659894_pallasbulk_154_2_alg».proof.Proof.Gen.KernelIdeal.Frame
import proofs.«149885_g2000505278659894_pallasbulk_154_2_alg».proof.Proof.Gen.ReferenceIdeal
import proofs.«149885_g2000505278659894_pallasbulk_154_2_alg».proof.Proof.Gen.ReferenceIdeal.Frame
import proofs.«149885_g2000505278659894_pallasbulk_154_2_alg».proof.Proof.Gen.Pre_finite_inputs
import proofs.«149885_g2000505278659894_pallasbulk_154_2_alg».proof.Proof.KRun
import proofs.«149885_g2000505278659894_pallasbulk_154_2_alg».proof.Proof.RRun
import proofs.«149885_g2000505278659894_pallasbulk_154_2_alg».proof.Proof.KVal
import proofs.«149885_g2000505278659894_pallasbulk_154_2_alg».proof.Proof.RVal
import Idealize.ShloMosaic.Adequacy
import Idealize.ShloMosaic.Init

noncomputable section

namespace Cert.Proof

open Idealize.ShloMosaic Idealize.ShloMosaic.TcCoe Idealize.SL.Sem

/-- Both idealized programs run, and from memories agreeing on the arguments both results are `resArr` of the
    arguments. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.CovSpec.resArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      Cert.KernelIdeal.Facts₀.shapeCasts_S64x512x512_S32768x512 Cert.KernelIdeal.Facts₀.shapeCasts_S32768x512_S64x512x512, ?_, ?_⟩
  · exact (θ_run Cert.KernelIdeal.defs _ _).mono
      (fun r h c => ⟨(h c).1.trans (Cert.KernelIdeal.ResVal.result_eq m ρ c), (h c).2⟩)
      (Cert.KernelIdeal.RunVal.run_value (F := Ideal) m ρ)
  · refine (θ_run Cert.ReferenceIdeal.defs _ _).mono
      (fun r h c => ⟨(h c).1.trans ((Cert.ReferenceIdeal.ResVal.result_eq m' ρ' c).trans ?_), (h c).2⟩)
      (Cert.ReferenceIdeal.RunVal.run_value (F := Ideal) m' ρ')
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
